-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16384 : Shape := ⟨2, ![256, 16384]⟩
abbrev S_ : Shape := ⟨0, ![]⟩

class Facts : Prop where
  bcast_S_S256x16384 : S_.BroadcastsInDim S256x16384 (![] : Fin 0 → Fin S256x16384.rank)
  reducesTo_S256x16384_S_d0_1 : S256x16384.ReducesTo [0, 1] S_
  h_S_ : 0 < S_.numel
  reducesTo_S_S_d : S_.ReducesTo [] S_

variable [Facts]

def fn {F : FTy → Type} [FloatOps F] (main_arg0 : FVec F S256x16384 .f32) (main_arg1 : FVec F S_ .f32) : IVec S_ 1 :=
  let main_v0 : FVec F S256x16384 .f32 := Host.absf main_arg0
  let main_cst : FVec F S_ .f32 := constant S_ .f32 0x7F800000#32
  let main_v1 : FVec F S256x16384 .f32 := broadcastInDim S256x16384 ![] bcast_S_S256x16384 main_cst
  let main_v2 : IVec S256x16384 1 := cmpf .olt main_v0 main_v1
  let main_c : IVec S_ 1 := constantI S_ 1 1#1
  let main_v3 : IVec S_ 1 := (fun x v => Host.reduce IntOp.andi x v reducesTo_S256x16384_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S256x16384 : Shape := ⟨2, ![256, 16384]⟩
abbrev S_ : Shape := ⟨0, ![]⟩
abbrev S256x2048 : Shape := ⟨2, ![256, 2048]⟩
abbrev S2048 : Shape := ⟨1, ![2048]⟩
abbrev S1x2048 : Shape := ⟨2, ![1, 2048]⟩
abbrev S64x1x256 : Shape := ⟨3, ![64, 1, 256]⟩
abbrev S256x256 : Shape := ⟨2, ![256, 256]⟩
abbrev S1x1x256 : Shape := ⟨3, ![1, 1, 256]⟩
abbrev S1x256 : Shape := ⟨2, ![1, 256]⟩
abbrev S2048x256 : Shape := ⟨2, ![2048, 256]⟩
abbrev S256 : Shape := ⟨1, ![256]⟩

abbrev nBuf : Space → Nat
  | .hbm => 11
  | .vmem => 9
  | .smem => 0
  | _ => 0

abbrev bufTy : (tb : Table) → Fin (tcTables nBuf tb) → BufTy
  | .hbm, ⟨0, _⟩ => ⟨S256x16384, .f32⟩
  | .hbm, ⟨1, _⟩ => ⟨S_, .f32⟩
  | .hbm, ⟨2, _⟩ => ⟨S256x16384, .bf16⟩
  | .hbm, ⟨3, _⟩ => ⟨S64x1x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x256, .bf16⟩
  | .local _ .vmem, ⟨5, _⟩ => ⟨S256x256, .bf16⟩
  | .local _ .vmem, ⟨6, _⟩ => ⟨S256x16384, .bf16⟩
  | .local _ .vmem, ⟨7, _⟩ => ⟨S1x1x256, .f32⟩
  | .local _ .vmem, ⟨8, _⟩ => ⟨S1x1x256, .f32⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def k1_mult1 : BitVec 32 :=
  let c0_i32 : BitVec 32 := 0#32
  let c2048_i32 : BitVec 32 := 2048#32
  let v3 : BitVec 32 := Scalar.muli c0_i32 c2048_i32
  v3
def k1_off1 (c0_i32 : BitVec 32) : Fin 2 → Nat :=
  let c0_1 : Index := 0#32
  let c2048_i32 : BitVec 32 := 2048#32
  let v3 : BitVec 32 := Scalar.muli c0_i32 c2048_i32
  let v4 : BitVec 32 := v3
  let v5 : Index := Scalar.indexCast v4
  ![0, v5.toNat]
def k1_mult2 : BitVec 32 :=
  let c1_i32 : BitVec 32 := 1#32
  let c2048_i32_4 : BitVec 32 := 2048#32
  let v13 : BitVec 32 := Scalar.muli c1_i32 c2048_i32_4
  v13
def k1_mult3 : BitVec 32 :=
  let c2_i32 : BitVec 32 := 2#32
  let c2048_i32_8 : BitVec 32 := 2048#32
  let v23 : BitVec 32 := Scalar.muli c2_i32 c2048_i32_8
  v23
def k1_mult4 : BitVec 32 :=
  let c3_i32 : BitVec 32 := 3#32
  let c2048_i32_12 : BitVec 32 := 2048#32
  let v33 : BitVec 32 := Scalar.muli c3_i32 c2048_i32_12
  v33
def k1_mult5 : BitVec 32 :=
  let c4_i32 : BitVec 32 := 4#32
  let c2048_i32_16 : BitVec 32 := 2048#32
  let v43 : BitVec 32 := Scalar.muli c4_i32 c2048_i32_16
  v43
def k1_mult6 : BitVec 32 :=
  let c5_i32 : BitVec 32 := 5#32
  let c2048_i32_20 : BitVec 32 := 2048#32
  let v53 : BitVec 32 := Scalar.muli c5_i32 c2048_i32_20
  v53
def k1_mult7 : BitVec 32 :=
  let c6_i32 : BitVec 32 := 6#32
  let c2048_i32_24 : BitVec 32 := 2048#32
  let v63 : BitVec 32 := Scalar.muli c6_i32 c2048_i32_24
  v63
def k1_mult8 : BitVec 32 :=
  let c7_i32 : BitVec 32 := 7#32
  let c2048_i32_28 : BitVec 32 := 2048#32
  let v73 : BitVec 32 := Scalar.muli c7_i32 c2048_i32_28
  v73
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x16384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S2048 : S256x2048.Reduces [0] S2048
  shapeCasts_S2048_S1x2048 : S2048.ShapeCasts S1x2048
  broadcasts_S1x2048_S256x2048 : S1x2048.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x2048_S256x2048 : S256x2048.ShapeCasts S256x2048
  reduces_S2048x256_S256 : S2048x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S64x1x256_S_d0_1_2 : S64x1x256.ReducesTo [0, 1, 2] S_
  h_S_ : 0 < S_.numel
  dot_S256x2048_S256x256_S2048x256_0_0_1_1_n_n_wf : DotDims.WF S256x2048 S256x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x16384.size a
  hwx0_0 : ∀ i : grid0.Coords, EltTy.bits .f32 = 32 ∨ (Rect.block (s := S256x16384) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x16384.size a
  hwx0_1 : ∀ i : grid0.Coords, EltTy.bits .bf16 = 32 ∨ (Rect.block (s := S256x16384) S256x2048.size (cc0_transform_1 i) (hinb0_1 i)).WholeWords (EltTy.packing .bf16)
  hrank1 : 0 < grid1.rank
  k1_mult1_dvd : 2048 ∣ k1_mult1.toNat
  k1_off1_inb : ∀ (r : Fin 8), ∀ a, (k1_off1 (BitVec.ofNat 32 r.val)) a + S256x2048.size a ≤ S256x16384.size a
  k1_mult2_dvd : 2048 ∣ k1_mult2.toNat
  k1_mult3_dvd : 2048 ∣ k1_mult3.toNat
  k1_mult4_dvd : 2048 ∣ k1_mult4.toNat
  k1_mult5_dvd : 2048 ∣ k1_mult5.toNat
  k1_mult6_dvd : 2048 ∣ k1_mult6.toNat
  k1_mult7_dvd : 2048 ∣ k1_mult7.toNat
  k1_mult8_dvd : 2048 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x16384.size a
  hwx1_0 : ∀ i : grid1.Coords, EltTy.bits .bf16 = 32 ∨ (Rect.block (s := S256x16384) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x16384.size a ≤ S256x16384.size a
  hwx1_1 : ∀ i : grid1.Coords, EltTy.bits .bf16 = 32 ∨ (Rect.block (s := S256x16384) S256x16384.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S64x1x256.size a
  hwx1_2 : ∀ i : grid1.Coords, EltTy.bits .f32 = 32 ∨ (Rect.block (s := S64x1x256) S1x1x256.size (cc1_transform_2 i) (hinb1_2 i)).WholeWords (EltTy.packing .f32)

variable [Facts₀]

def dot_S256x2048_S256x256_S2048x256_0_0_1_1_n_n : DotDims S256x2048 S256x256 S2048x256 where
  lhsContracting := [0]
  rhsContracting := [0]
  lhsNonContracting := [1]
  rhsNonContracting := [1]
  lhsBatch := []
  rhsBatch := []
  wf := dot_S256x2048_S256x256_S2048x256_0_0_1_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x16384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x16384 : Shape := ⟨2, ![256, 16384]⟩
abbrev S_ : Shape := ⟨0, ![]⟩
abbrev S16384 : Shape := ⟨1, ![16384]⟩
abbrev S1x16384 : Shape := ⟨2, ![1, 16384]⟩
abbrev S16384x16384 : Shape := ⟨2, ![16384, 16384]⟩

abbrev nBuf : Space → Nat
  | .hbm => 25
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S_, .f32⟩
  | .hbm, ⟨2, _⟩ => ⟨S256x16384, .f32⟩
  | .hbm, ⟨3, _⟩ => ⟨S_, .f32⟩
  | .hbm, ⟨4, _⟩ => ⟨S16384, .f32⟩
  | .hbm, ⟨5, _⟩ => ⟨S1x16384, .f32⟩
  | .hbm, ⟨6, _⟩ => ⟨S1x16384, .f32⟩
  | .hbm, ⟨7, _⟩ => ⟨S_, .f32⟩
  | .hbm, ⟨8, _⟩ => ⟨S1x16384, .f32⟩
  | .hbm, ⟨9, _⟩ => ⟨S1x16384, .f32⟩
  | .hbm, ⟨10, _⟩ => ⟨S256x16384, .f32⟩
  | .hbm, ⟨11, _⟩ => ⟨S256x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  reducesTo_S256x16384_S16384_d0 : S256x16384.ReducesTo [0] S16384
  h_S_ : 0 < S_.numel
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S256x16384_0_1 : S1x16384.BroadcastsInDim S256x16384 (![0, 1] : Fin 2 → Fin S256x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S256x16384_S256x16384_S16384x16384_0_0_1_1_n_n_wf : DotDims.WF S256x16384 S256x16384 S16384x16384 [0] [0] [1] [1] [] []

variable [Facts₀]

def dot_S256x16384_S256x16384_S16384x16384_0_0_1_1_n_n : DotDims S256x16384 S256x16384 S16384x16384 where
  lhsContracting := [0]
  rhsContracting := [0]
  lhsNonContracting := [1]
  rhsNonContracting := [1]
  lhsBatch := []
  rhsBatch := []
  wf := dot_S256x16384_S256x16384_S16384x16384_0_0_1_1_n_n_wf

class Facts : Prop extends Facts₀ where

variable [Facts]
-- ==== Proof.KRegion0.lean ====
/-
  The first kernel region: the column-normalising kernel over eight column blocks of width 2048. At every grid point
  the input window's staging buffer holds the block of the weight matrix the point's index map names, and the body
  leaves in the output window's staging buffer one whole-buffer store of the body's arithmetic applied to that block.
  Stated at any float instance and at any contents `V` of the core's buffers when the region is entered.
-/
import proofs.«152298_j65429531787296_2_alg».proof.Proof.Gen.Kernel.Launch
import proofs.«152298_j65429531787296_2_alg».proof.Proof.Gen.Kernel.Skeleton
import proofs.«152298_j65429531787296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffer as a rectangle: what the body loads and stores through. -/
abbrev r0_0 : Rect S256x2048 := Rect.unit (s := S256x2048) ![0, 0] S256x2048.size inb_S256x2048_S256x2048_0_0

/-- The output window's staging buffer after the body: its one store over the input block. -/
def out0_1 (x0 : Vec F S256x2048 .f32) : Vec F S256x2048 .bf16 :=
  View.canon [⟨r0_0, k0_pay1 (View.ld x0 r0_0)⟩]

/-- The one store covers the buffer. -/
theorem cover0_1 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The body on whole staging memrefs: the input's buffer is read and kept, the output's ends at `out0_1` of it. -/
theorem sound_kernel0 (c : Dev nD) (E : Set ℕ) (i : grid0.Coords) (arg0 : Memref sig .tc .vmem S256x2048 .f32) (harg0 : arg0.IsWhole) (arg1 : Memref sig .tc .vmem S256x2048 .bf16) (harg1 : arg1.IsWhole)
    (x0 : Vec F S256x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body the input's
    buffer at its block and the output's at `out0_1` of it; the invariant the scoped rest and the generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/-
  The second kernel region: the Gram kernel over 64 blocks of 256 query columns. Two input windows read the SAME array
  (the normalised matrix): one stages the point's 256 query columns, the other keeps the whole matrix resident, fetched
  once. At every point both staging buffers hold their blocks of that array, and the body leaves in the output window's
  staging buffer one whole-buffer store of the body's arithmetic applied to the query block and to the eight key chunks
  of width 2048 it loads from the resident matrix. Stated at any float instance and at any contents `V` of the core's
  buffers when the region is entered; each of the two input windows holds half of the shared array's share.
-/
import proofs.«152298_j65429531787296_2_alg».proof.Proof.Gen.Kernel.Launch
import proofs.«152298_j65429531787296_2_alg».proof.Proof.Gen.Kernel.Skeleton
import proofs.«152298_j65429531787296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident window's staging buffer holds its block at every point, fetched there or not: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: the whole query buffer, the eight key chunks of the resident
    buffer, the whole output buffer. -/
abbrev r1_0 : Rect S256x256 := Rect.unit (s := S256x256) ![0, 0] S256x256.size inb_S256x256_S256x256_0_0
abbrev r1_1 (k : Fin 8) : Rect S256x16384 := Rect.unit (s := S256x16384) (k1_off1 (BitVec.ofNat 32 k.val)) S256x2048.size (k1_off1_inb k)
abbrev r1_2 : Rect S1x1x256 := Rect.unit (s := S1x1x256) ![0, 0, 0] S1x1x256.size inb_S1x1x256_S1x1x256_0_0_0

/-- The body's arithmetic over the query block and the resident matrix: the stored value. -/
def pay1 (x0 : Vec F S256x256 .bf16) (x1 : Vec F S256x16384 .bf16) : Vec F S1x1x256 .f32 :=
  k1_pay1 (k1_pay2 (View.ld x0 r1_0))
    (k1_pay5 (k1_pay2 (View.ld x0 r1_0)) (k1_pay3 (View.ld x0 r1_0) (View.ld x1 (r1_1 0)) (View.ld x1 (r1_1 1)) (View.ld x1 (r1_1 2)))
      (k1_pay4 (View.ld x1 (r1_1 3))) (View.ld x1 (r1_1 4)) (View.ld x1 (r1_1 5)) (View.ld x1 (r1_1 6)))
    (k1_pay6 (View.ld x1 (r1_1 7)))

/-- The output window's staging buffer after the body: its one store. -/
def out1_2 (x0 : Vec F S256x256 .bf16) (x1 : Vec F S256x16384 .bf16) : Vec F S1x1x256 .f32 :=
  View.canon [⟨r1_2, pay1 x0 x1⟩]

/-- The one store covers the buffer. -/
theorem cover1_2 (p0 : Vec F S1x1x256 .f32) (y : S1x1x256.Idx) :
    ∃ pc ∈ ([⟨r1_2, p0⟩] : List (View.Piece (Elt F) S1x1x256 .f32)), y ∈ pc.1.set :=
  View.cover_of_tiled [⟨r1_2, p0⟩] S1x1x256.size (by rfl) y

set_option maxHeartbeats 4000000 in
/-- The body on whole staging memrefs: the two inputs' buffers are read (the query's at the full share, the resident
    one at any share) and kept, the output's ends at `out1_2` of them. -/
theorem sound_kernel1 (c : Dev nD) (E : Set ℕ) (i : grid1.Coords) (arg0 : Memref sig .tc .vmem S256x256 .bf16) (harg0 : arg0.IsWhole)
    (arg1 : Memref sig .tc .vmem S256x16384 .bf16) (harg1 : arg1.IsWhole) (arg2 : Memref sig .tc .vmem S1x1x256 .f32) (harg2 : arg2.IsWhole)
    (x0 : Vec F S256x256 .bf16) (x1 : Vec F S256x16384 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__gram_kernel i arg0 harg0 arg1 harg1 arg2 harg2) K := by
  simp only [cc1__gram_kernel_eq_skeleton]; unfold cc1__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body each input's
    buffer at its block and the output's at `out1_2` of them; the invariant the scoped rest and the generator register;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole program: the two kernel regions in order and the host operations after them, from the launch to the return.
  Between two items the core holds every unscoped buffer whole: at launch the launch contents; after the first region the
  normalised matrix in its result buffer; after the second the per-column logarithms in theirs; after the host
  operations their fold over those. In the second region the two windows that read the normalised matrix each take
  half of that buffer's share at entry and give it back at exit, both still at the entry contents (inputs are never
  written). Every execution ends with the arguments unchanged and the result buffer at the last valuation.
-/
import proofs.«152298_j65429531787296_2_alg».proof.Proof.KRegion0
import proofs.«152298_j65429531787296_2_alg».proof.Proof.KRegion1
import proofs.«152298_j65429531787296_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- The first region's entry contents: the launch memory. -/
abbrev Va (c : Dev nD) (b : Ref sig .tc) : Buf (Elt F) ((c : Thread nD τ).loc b) := Gen.V0 m c b

/-- What the first region leaves in its result buffer: the write-backs of all its points. -/
def o1 (c : Dev nD) : Buf (Elt F) ((c : Thread nD τ).loc main_v0) := (dat0 (Va m) c).arrAt 1 cfg0.N

/-- The second region's entry contents: the launch memory with the first region's result. -/
abbrev Wb (c : Dev nD) : Valuation τ sig (Elt F) := Function.update (Gen.V0 m c) main_v0 (o1 m c)
abbrev Vb (c : Dev nD) (b : Ref sig .tc) : Buf (Elt F) ((c : Thread nD τ).loc b) := Wb m c b

/-- What the second region leaves in its result buffer. -/
def o2 (c : Dev nD) : Buf (Elt F) ((c : Thread nD τ).loc main_v1) := (dat1 (Vb m) c).arrAt 2 cfg1.N

/-- What the regions leave, as the family the valuations are written over. -/
def outs : Gen.Outs (F := F) := fun J =>
  match J with
  | 1 => Function.update (fun (r : Ref sig .tc) (c : Dev nD) => m ((c : Thread nD τ).loc r)) main_v0 (o1 m)
  | _ => Function.update (fun (r : Ref sig .tc) (c : Dev nD) => m ((c : Thread nD τ).loc r)) main_v1 (o2 m)

theorem outs_1 (c : Dev nD) : outs m 1 main_v0 c = o1 m c := by
  show Function.update (fun (r : Ref sig .tc) (c : Dev nD) => m ((c : Thread nD τ).loc r)) main_v0 (o1 m) main_v0 c = _
  rw [Function.update_self]
theorem outs_2 (c : Dev nD) : outs m 2 main_v1 c = o2 m c := by
  show Function.update (fun (r : Ref sig .tc) (c : Dev nD) => m ((c : Thread nD τ).loc r)) main_v1 (o2 m) main_v1 c = _
  rw [Function.update_self]

theorem V1_eq (c : Dev nD) : Gen.V1 m (outs m) c = Wb m c := by
  show Function.update (Gen.V0 m c) main_v0 (outs m 1 main_v0 c) = _
  rw [outs_1]

/-- After the second region. -/
abbrev Wc (c : Dev nD) : Valuation τ sig (Elt F) := Function.update (Wb m c) main_v1 (o2 m c)
abbrev Vc (c : Dev nD) (b : Ref sig .tc) : Buf (Elt F) ((c : Thread nD τ).loc b) := Wc m c b

theorem V2_eq (c : Dev nD) : Gen.V2 m (outs m) c = Wc m c := by
  show Function.update (Gen.V1 m (outs m) c) main_v1 (outs m 2 main_v1 c) = _
  rw [outs_2, V1_eq]

/-! ## The proof data family -/

def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The first region as a segment -/

theorem hF0 (c : Dev nD) : ∀ w : Fin cfg0.W, (dat0 (Va m) c).arrAt w cfg0.N = Vb m c (Pipeline.arrRef spec0 w)
  | ⟨0, _⟩ => ((dat0 (Va m) c).arrAt_in 0 rfl _).trans ((A_eq0 (Va m) c 0).trans
      (Function.update_of_ne (StableHlo.devRef_ne_of_ne (by decide) : (Proc.devRef .tc main_arg0 : DevRef τ sig) ≠ Proc.devRef .tc main_v0) _ _).symm)
  | ⟨1, _⟩ => (Function.update_self (f := Gen.V0 m c) (Proc.devRef .tc main_v0) (o1 m c)).symm

theorem hrest0 (c : Dev nD) : ∀ b, b ∉ Finset.univ.image (Pipeline.arrRef spec0) → Vb m c b = Va m c b :=
  fun b hb => Function.update_of_ne (StableHlo.devRef_ne_of_ne (fun e => hb (Finset.mem_image.mpr ⟨1, Finset.mem_univ _, e.symm⟩))) _ _

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: two windows on one array -/

/-- The distinct buffers behind the second region's arrays: the normalised matrix and the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  rw [show Finset.univ.image (Pipeline.arrRef spec1) = ({main_v0, main_v1} : Finset (Ref sig .tc)) from by decide,
    bigSep_insert (by decide), bigSep_singleton]
  rfl

/-- The second region's arrays as the proof data holds them: the shared buffer once per window at its half share, the
    result's at the full share. -/
theorem arrays1_eq (V : (c : Dev nD) → (b : Ref sig .tc) → Buf (Elt F) ((c : Thread nD τ).loc b)) (c : Dev nD)
    (Fa : (w : Fin cfg1.W) → Buf (Elt F) ((cfg1.win w).arr.view.loc (c.tc : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W1, (arr_whole1 0).set_eq_univ, (arr_whole1 2).set_eq_univ]
  rfl

theorem hrest1 (c : Dev nD) (b : Ref sig .tc) (hb : b ≠ main_v1) : Vc m c b = Vb m c b :=
  Function.update_of_ne (StableHlo.devRef_ne_of_ne hb) _ _

/-- Every unscoped buffer at a valuation: the two buffers behind the second region's arrays, and the rest. -/
theorem held_split1 (c : Dev nD) (Wv : Valuation τ sig (Elt F)) :
    (StableHlo.held (c : Thread nD τ) (Pipeline.ucRefs τ sig) Wv : sProp 𝕄)
      = iprop(((((c : Thread nD τ).loc main_v0) ↦{fullShare} Wv main_v0) ∗ (((c : Thread nD τ).loc main_v1) ↦{fullShare} Wv main_v1))
          ∗ Pipeline.unscopedRest spec1 c (fun b => Wv b)) := by
  have h := Pipeline.unscopedBufs_split₀ (Ix := Unit) (Name := ℕ) (U := UR sig nD τ) (Lvl := ℕ) (cfgs) (1 : Fin 2) winFacts₀1.arr_unscoped c (fun b => Wv b)
  rw [Pipeline.unscopedBufs_held] at h
  exact h.trans (congrArg (fun A => iprop(A ∗ Pipeline.unscopedRest spec1 c (fun b => Wv b))) (arrBufs1_eq c (fun b => Wv b)))

/-- Entry: the shared buffer's full share is dealt to the two windows that read it. -/
theorem entry1 (c : Dev nD) :
    (StableHlo.held (c : Thread nD τ) (Pipeline.ucRefs τ sig) (Wb m c) : sProp 𝕄)
      ⊢ iprop((dat1 (Vb m) c).arrays (fun w => (dat1 (Vb m) c).arrAt w 0) ∗ Pipeline.unscopedRest spec1 c (Vb m c)) := by
  have hsh : ((((c : Thread nD τ).loc main_v0) ↦{fullShare} Wb m c main_v0) : sProp 𝕄)
      ⊢ iprop((((c : Thread nD τ).loc main_v0) ↦{fullShare.left} Wb m c main_v0) ∗ (((c : Thread nD τ).loc main_v0) ↦{fullShare.right} Wb m c main_v0)) :=
    (pointsTo_share (PosShare.mem_left_op_right fullShare)).1
  rw [held_split1, arrays1_eq]
  refine (sep_mono (sep_mono hsh .rfl) .rfl).trans ?_
  iintro ⟨⟨⟨Hl, Hr⟩, H1⟩, Hrest⟩
  isplitl [Hl Hr H1]
  · isplitl [Hl]; · iexact Hl
    isplitl [Hr]; · iexact Hr
    iexact H1
  iexact Hrest

/-- Exit: both windows on the shared buffer still hold its entry contents, so their shares join; the result's buffer
    holds what the write-backs left. -/
theorem exit1 (c : Dev nD) :
    iprop((dat1 (Vb m) c).arrays (fun w => (dat1 (Vb m) c).arrAt w cfg1.N) ∗ Pipeline.unscopedRest spec1 c (Vb m c))
      ⊢ (StableHlo.held (c : Thread nD τ) (Pipeline.ucRefs τ sig) (Wc m c) : sProp 𝕄) := by
  have h0 : (dat1 (Vb m) c).arrAt 0 cfg1.N = Vc m c main_v0 :=
    ((dat1 (Vb m) c).arrAt_in 0 rfl _).trans ((A_eq1 (Vb m) c 0).trans (hrest1 m c main_v0 (by decide)).symm)
  have h1 : (dat1 (Vb m) c).arrAt 1 cfg1.N = Vc m c main_v0 :=
    ((dat1 (Vb m) c).arrAt_in 1 rfl _).trans ((A_eq1 (Vb m) c 1).trans (hrest1 m c main_v0 (by decide)).symm)
  have h2 : (dat1 (Vb m) c).arrAt 2 cfg1.N = Vc m c main_v1 :=
    (Function.update_self (f := Wb m c) (Proc.devRef .tc main_v1) (o2 m c)).symm
  have hr : (Pipeline.unscopedRest (Ix := Unit) (Name := ℕ) (U := UR sig nD τ) (Lvl := ℕ) spec1 c (Vb m c) : sProp 𝕄)
      = Pipeline.unscopedRest spec1 c (Vc m c) := by
    unfold Pipeline.unscopedRest
    exact bigSep_congr fun b hb => by
      rw [hrest1 m c b (fun e => (Finset.mem_sdiff.mp hb).2 (Finset.mem_image.mpr ⟨2, Finset.mem_univ _, e.symm⟩))]
  have hsh : iprop((((c : Thread nD τ).loc main_v0) ↦{fullShare.left} Wc m c main_v0) ∗ (((c : Thread nD τ).loc main_v0) ↦{fullShare.right} Wc m c main_v0))
      ⊢ ((((c : Thread nD τ).loc main_v0) ↦{fullShare} Wc m c main_v0) : sProp 𝕄) :=
    (pointsTo_share (PosShare.mem_left_op_right fullShare)).2
  rw [held_split1, arrays1_eq, hr]
  dsimp only
  rw [h0, h1, h2]
  refine BIBase.Entails.trans ?_ (sep_mono (sep_mono hsh .rfl) .rfl)
  iintro ⟨⟨Hl, Hr, H1⟩, Hrest⟩
  isplitl [Hl Hr H1]
  · isplitl [Hl Hr]
    · isplitl [Hl]; · iexact Hl
      iexact Hr
    iexact H1
  iexact Hrest

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    refine (sep_mono (sep_mono (entry1 m c) .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

/-! ## The launch -/

/-- What rides along at every item boundary. -/
abbrev Eb : Fin 3 → Dev nD → sProp 𝕄 := fun _ c => R c

set_option backward.isDefEq.respectTransparency.types false in
/-- From any memory with zero counters every weakly fair execution of the program terminates, nothing faulting; the result
    buffer ends at the last valuation's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v5) = Gen.V3 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ 𝒱₀ L lv m ρ main
    (Gen.segs m (outs m) 𝒱₀ L lv Eb () (pdats m) (reg0 m) (reg1 m))
    (fun c Q => by
      rewrite [main_chain c, Seg.run_eq_chain,
        show (Gen.segs m (outs m) 𝒱₀ L lv Eb () (pdats m) (reg0 m) (reg1 m) c).map Seg.prog = [
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V3 m (outs m) c))
    (hch := fun c => ⟨.rfl, .rfl, Entails.of_eq (by
      show iprop(StableHlo.held (c : Thread nD τ) (Pipeline.ucRefs τ sig) (Wc m c) ∗ R c) = iprop(StableHlo.held (c : Thread nD τ) (Pipeline.ucRefs τ sig) (Gen.V2 m (outs m) c) ∗ Eb 2 c)
      rw [V2_eq]), sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨Hh, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun s h c =>
      ⟨h c (Proc.devRef .tc main_v5) (Finset.mem_filter.mpr ⟨StableHlo.devRef_mem_tcRefs main_v5, by decide⟩),
        (h c (Proc.devRef .tc main_arg0) (Finset.mem_filter.mpr ⟨StableHlo.devRef_mem_tcRefs main_arg0, by decide⟩)).trans (Gen.V3_main_arg0 m (outs m) c),
        (h c (Proc.devRef .tc main_arg1) (Finset.mem_filter.mpr ⟨StableHlo.devRef_mem_tcRefs main_arg1, by decide⟩)).trans (Gen.V3_main_arg1 m (outs m) c)⟩)

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KIRegion0.lean ====
/-
  The first kernel region: the column-normalising kernel over eight column blocks of width 2048. At every grid point
  the input window's staging buffer holds the block of the weight matrix the point's index map names, and the body
  leaves in the output window's staging buffer one whole-buffer store of the body's arithmetic applied to that block.
  Stated at any float instance and at any contents `V` of the core's buffers when the region is entered.
-/
import proofs.«152298_j65429531787296_2_alg».proof.Proof.Gen.KernelIdeal.Launch
import proofs.«152298_j65429531787296_2_alg».proof.Proof.Gen.KernelIdeal.Skeleton
import proofs.«152298_j65429531787296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffer as a rectangle: what the body loads and stores through. -/
abbrev r0_0 : Rect S256x2048 := Rect.unit (s := S256x2048) ![0, 0] S256x2048.size inb_S256x2048_S256x2048_0_0

/-- The output window's staging buffer after the body: its one store over the input block. -/
def out0_1 (x0 : Vec F S256x2048 .f32) : Vec F S256x2048 .bf16 :=
  View.canon [⟨r0_0, k0_pay1 (View.ld x0 r0_0)⟩]

/-- The one store covers the buffer. -/
theorem cover0_1 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The body on whole staging memrefs: the input's buffer is read and kept, the output's ends at `out0_1` of it. -/
theorem sound_kernel0 (c : Dev nD) (E : Set ℕ) (i : grid0.Coords) (arg0 : Memref sig .tc .vmem S256x2048 .f32) (harg0 : arg0.IsWhole) (arg1 : Memref sig .tc .vmem S256x2048 .bf16) (harg1 : arg1.IsWhole)
    (x0 : Vec F S256x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body the input's
    buffer at its block and the output's at `out0_1` of it; the invariant the scoped rest and the generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1.lean ====
/-
  The second kernel region: the Gram kernel over 64 blocks of 256 query columns. Two input windows read the SAME array
  (the normalised matrix): one stages the point's 256 query columns, the other keeps the whole matrix resident, fetched
  once. At every point both staging buffers hold their blocks of that array, and the body leaves in the output window's
  staging buffer one whole-buffer store of the body's arithmetic applied to the query block and to the eight key chunks
  of width 2048 it loads from the resident matrix. Stated at any float instance and at any contents `V` of the core's
  buffers when the region is entered; each of the two input windows holds half of the shared array's share.
-/
import proofs.«152298_j65429531787296_2_alg».proof.Proof.Gen.KernelIdeal.Launch
import proofs.«152298_j65429531787296_2_alg».proof.Proof.Gen.KernelIdeal.Skeleton
import proofs.«152298_j65429531787296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident window's staging buffer holds its block at every point, fetched there or not: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: the whole query buffer, the eight key chunks of the resident
    buffer, the whole output buffer. -/
abbrev r1_0 : Rect S256x256 := Rect.unit (s := S256x256) ![0, 0] S256x256.size inb_S256x256_S256x256_0_0
abbrev r1_1 (k : Fin 8) : Rect S256x16384 := Rect.unit (s := S256x16384) (k1_off1 (BitVec.ofNat 32 k.val)) S256x2048.size (k1_off1_inb k)
abbrev r1_2 : Rect S1x1x256 := Rect.unit (s := S1x1x256) ![0, 0, 0] S1x1x256.size inb_S1x1x256_S1x1x256_0_0_0

/-- The body's arithmetic over the query block and the resident matrix: the stored value. -/
def pay1 (x0 : Vec F S256x256 .bf16) (x1 : Vec F S256x16384 .bf16) : Vec F S1x1x256 .f32 :=
  k1_pay1 (k1_pay2 (View.ld x0 r1_0))
    (k1_pay5 (k1_pay2 (View.ld x0 r1_0)) (k1_pay3 (View.ld x0 r1_0) (View.ld x1 (r1_1 0)) (View.ld x1 (r1_1 1)) (View.ld x1 (r1_1 2)))
      (k1_pay4 (View.ld x1 (r1_1 3))) (View.ld x1 (r1_1 4)) (View.ld x1 (r1_1 5)) (View.ld x1 (r1_1 6)))
    (k1_pay6 (View.ld x1 (r1_1 7)))

/-- The output window's staging buffer after the body: its one store. -/
def out1_2 (x0 : Vec F S256x256 .bf16) (x1 : Vec F S256x16384 .bf16) : Vec F S1x1x256 .f32 :=
  View.canon [⟨r1_2, pay1 x0 x1⟩]

/-- The one store covers the buffer. -/
theorem cover1_2 (p0 : Vec F S1x1x256 .f32) (y : S1x1x256.Idx) :
    ∃ pc ∈ ([⟨r1_2, p0⟩] : List (View.Piece (Elt F) S1x1x256 .f32)), y ∈ pc.1.set :=
  View.cover_of_tiled [⟨r1_2, p0⟩] S1x1x256.size (by rfl) y

set_option maxHeartbeats 4000000 in
/-- The body on whole staging memrefs: the two inputs' buffers are read (the query's at the full share, the resident
    one at any share) and kept, the output's ends at `out1_2` of them. -/
theorem sound_kernel1 (c : Dev nD) (E : Set ℕ) (i : grid1.Coords) (arg0 : Memref sig .tc .vmem S256x256 .bf16) (harg0 : arg0.IsWhole)
    (arg1 : Memref sig .tc .vmem S256x16384 .bf16) (harg1 : arg1.IsWhole) (arg2 : Memref sig .tc .vmem S1x1x256 .f32) (harg2 : arg2.IsWhole)
    (x0 : Vec F S256x256 .bf16) (x1 : Vec F S256x16384 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__gram_kernel i arg0 harg0 arg1 harg1 arg2 harg2) K := by
  simp only [cc1__gram_kernel_eq_skeleton]; unfold cc1__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body each input's
    buffer at its block and the output's at `out1_2` of them; the invariant the scoped rest and the generator register;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The whole program: the two kernel regions in order and the host operations after them, from the launch to the return.
  Between two items the core holds every unscoped buffer whole: at launch the launch contents; after the first region the
  normalised matrix in its result buffer; after the second the per-column logarithms in theirs; after the host
  operations their fold over those. In the second region the two windows that read the normalised matrix each take
  half of that buffer's share at entry and give it back at exit, both still at the entry contents (inputs are never
  written). Every execution ends with the arguments unchanged and the result buffer at the last valuation.
-/
import proofs.«152298_j65429531787296_2_alg».proof.Proof.KIRegion0
import proofs.«152298_j65429531787296_2_alg».proof.Proof.KIRegion1
import proofs.«152298_j65429531787296_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- The first region's entry contents: the launch memory. -/
abbrev Va (c : Dev nD) (b : Ref sig .tc) : Buf (Elt F) ((c : Thread nD τ).loc b) := Gen.V0 m c b

/-- What the first region leaves in its result buffer: the write-backs of all its points. -/
def o1 (c : Dev nD) : Buf (Elt F) ((c : Thread nD τ).loc main_v0) := (dat0 (Va m) c).arrAt 1 cfg0.N

/-- The second region's entry contents: the launch memory with the first region's result. -/
abbrev Wb (c : Dev nD) : Valuation τ sig (Elt F) := Function.update (Gen.V0 m c) main_v0 (o1 m c)
abbrev Vb (c : Dev nD) (b : Ref sig .tc) : Buf (Elt F) ((c : Thread nD τ).loc b) := Wb m c b

/-- What the second region leaves in its result buffer. -/
def o2 (c : Dev nD) : Buf (Elt F) ((c : Thread nD τ).loc main_v1) := (dat1 (Vb m) c).arrAt 2 cfg1.N

/-- What the regions leave, as the family the valuations are written over. -/
def outs : Gen.Outs (F := F) := fun J =>
  match J with
  | 1 => Function.update (fun (r : Ref sig .tc) (c : Dev nD) => m ((c : Thread nD τ).loc r)) main_v0 (o1 m)
  | _ => Function.update (fun (r : Ref sig .tc) (c : Dev nD) => m ((c : Thread nD τ).loc r)) main_v1 (o2 m)

theorem outs_1 (c : Dev nD) : outs m 1 main_v0 c = o1 m c := by
  show Function.update (fun (r : Ref sig .tc) (c : Dev nD) => m ((c : Thread nD τ).loc r)) main_v0 (o1 m) main_v0 c = _
  rw [Function.update_self]
theorem outs_2 (c : Dev nD) : outs m 2 main_v1 c = o2 m c := by
  show Function.update (fun (r : Ref sig .tc) (c : Dev nD) => m ((c : Thread nD τ).loc r)) main_v1 (o2 m) main_v1 c = _
  rw [Function.update_self]

theorem V1_eq (c : Dev nD) : Gen.V1 m (outs m) c = Wb m c := by
  show Function.update (Gen.V0 m c) main_v0 (outs m 1 main_v0 c) = _
  rw [outs_1]

/-- After the second region. -/
abbrev Wc (c : Dev nD) : Valuation τ sig (Elt F) := Function.update (Wb m c) main_v1 (o2 m c)
abbrev Vc (c : Dev nD) (b : Ref sig .tc) : Buf (Elt F) ((c : Thread nD τ).loc b) := Wc m c b

theorem V2_eq (c : Dev nD) : Gen.V2 m (outs m) c = Wc m c := by
  show Function.update (Gen.V1 m (outs m) c) main_v1 (outs m 2 main_v1 c) = _
  rw [outs_2, V1_eq]

/-! ## The proof data family -/

def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The first region as a segment -/

theorem hF0 (c : Dev nD) : ∀ w : Fin cfg0.W, (dat0 (Va m) c).arrAt w cfg0.N = Vb m c (Pipeline.arrRef spec0 w)
  | ⟨0, _⟩ => ((dat0 (Va m) c).arrAt_in 0 rfl _).trans ((A_eq0 (Va m) c 0).trans
      (Function.update_of_ne (StableHlo.devRef_ne_of_ne (by decide) : (Proc.devRef .tc main_arg0 : DevRef τ sig) ≠ Proc.devRef .tc main_v0) _ _).symm)
  | ⟨1, _⟩ => (Function.update_self (f := Gen.V0 m c) (Proc.devRef .tc main_v0) (o1 m c)).symm

theorem hrest0 (c : Dev nD) : ∀ b, b ∉ Finset.univ.image (Pipeline.arrRef spec0) → Vb m c b = Va m c b :=
  fun b hb => Function.update_of_ne (StableHlo.devRef_ne_of_ne (fun e => hb (Finset.mem_image.mpr ⟨1, Finset.mem_univ _, e.symm⟩))) _ _

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: two windows on one array -/

/-- The distinct buffers behind the second region's arrays: the normalised matrix and the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  rw [show Finset.univ.image (Pipeline.arrRef spec1) = ({main_v0, main_v1} : Finset (Ref sig .tc)) from by decide,
    bigSep_insert (by decide), bigSep_singleton]
  rfl

/-- The second region's arrays as the proof data holds them: the shared buffer once per window at its half share, the
    result's at the full share. -/
theorem arrays1_eq (V : (c : Dev nD) → (b : Ref sig .tc) → Buf (Elt F) ((c : Thread nD τ).loc b)) (c : Dev nD)
    (Fa : (w : Fin cfg1.W) → Buf (Elt F) ((cfg1.win w).arr.view.loc (c.tc : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W1, (arr_whole1 0).set_eq_univ, (arr_whole1 2).set_eq_univ]
  rfl

theorem hrest1 (c : Dev nD) (b : Ref sig .tc) (hb : b ≠ main_v1) : Vc m c b = Vb m c b :=
  Function.update_of_ne (StableHlo.devRef_ne_of_ne hb) _ _

/-- Every unscoped buffer at a valuation: the two buffers behind the second region's arrays, and the rest. -/
theorem held_split1 (c : Dev nD) (Wv : Valuation τ sig (Elt F)) :
    (StableHlo.held (c : Thread nD τ) (Pipeline.ucRefs τ sig) Wv : sProp 𝕄)
      = iprop(((((c : Thread nD τ).loc main_v0) ↦{fullShare} Wv main_v0) ∗ (((c : Thread nD τ).loc main_v1) ↦{fullShare} Wv main_v1))
          ∗ Pipeline.unscopedRest spec1 c (fun b => Wv b)) := by
  have h := Pipeline.unscopedBufs_split₀ (Ix := Unit) (Name := ℕ) (U := UR sig nD τ) (Lvl := ℕ) (cfgs) (1 : Fin 2) winFacts₀1.arr_unscoped c (fun b => Wv b)
  rw [Pipeline.unscopedBufs_held] at h
  exact h.trans (congrArg (fun A => iprop(A ∗ Pipeline.unscopedRest spec1 c (fun b => Wv b))) (arrBufs1_eq c (fun b => Wv b)))

/-- Entry: the shared buffer's full share is dealt to the two windows that read it. -/
theorem entry1 (c : Dev nD) :
    (StableHlo.held (c : Thread nD τ) (Pipeline.ucRefs τ sig) (Wb m c) : sProp 𝕄)
      ⊢ iprop((dat1 (Vb m) c).arrays (fun w => (dat1 (Vb m) c).arrAt w 0) ∗ Pipeline.unscopedRest spec1 c (Vb m c)) := by
  have hsh : ((((c : Thread nD τ).loc main_v0) ↦{fullShare} Wb m c main_v0) : sProp 𝕄)
      ⊢ iprop((((c : Thread nD τ).loc main_v0) ↦{fullShare.left} Wb m c main_v0) ∗ (((c : Thread nD τ).loc main_v0) ↦{fullShare.right} Wb m c main_v0)) :=
    (pointsTo_share (PosShare.mem_left_op_right fullShare)).1
  rw [held_split1, arrays1_eq]
  refine (sep_mono (sep_mono hsh .rfl) .rfl).trans ?_
  iintro ⟨⟨⟨Hl, Hr⟩, H1⟩, Hrest⟩
  isplitl [Hl Hr H1]
  · isplitl [Hl]; · iexact Hl
    isplitl [Hr]; · iexact Hr
    iexact H1
  iexact Hrest

/-- Exit: both windows on the shared buffer still hold its entry contents, so their shares join; the result's buffer
    holds what the write-backs left. -/
theorem exit1 (c : Dev nD) :
    iprop((dat1 (Vb m) c).arrays (fun w => (dat1 (Vb m) c).arrAt w cfg1.N) ∗ Pipeline.unscopedRest spec1 c (Vb m c))
      ⊢ (StableHlo.held (c : Thread nD τ) (Pipeline.ucRefs τ sig) (Wc m c) : sProp 𝕄) := by
  have h0 : (dat1 (Vb m) c).arrAt 0 cfg1.N = Vc m c main_v0 :=
    ((dat1 (Vb m) c).arrAt_in 0 rfl _).trans ((A_eq1 (Vb m) c 0).trans (hrest1 m c main_v0 (by decide)).symm)
  have h1 : (dat1 (Vb m) c).arrAt 1 cfg1.N = Vc m c main_v0 :=
    ((dat1 (Vb m) c).arrAt_in 1 rfl _).trans ((A_eq1 (Vb m) c 1).trans (hrest1 m c main_v0 (by decide)).symm)
  have h2 : (dat1 (Vb m) c).arrAt 2 cfg1.N = Vc m c main_v1 :=
    (Function.update_self (f := Wb m c) (Proc.devRef .tc main_v1) (o2 m c)).symm
  have hr : (Pipeline.unscopedRest (Ix := Unit) (Name := ℕ) (U := UR sig nD τ) (Lvl := ℕ) spec1 c (Vb m c) : sProp 𝕄)
      = Pipeline.unscopedRest spec1 c (Vc m c) := by
    unfold Pipeline.unscopedRest
    exact bigSep_congr fun b hb => by
      rw [hrest1 m c b (fun e => (Finset.mem_sdiff.mp hb).2 (Finset.mem_image.mpr ⟨2, Finset.mem_univ _, e.symm⟩))]
  have hsh : iprop((((c : Thread nD τ).loc main_v0) ↦{fullShare.left} Wc m c main_v0) ∗ (((c : Thread nD τ).loc main_v0) ↦{fullShare.right} Wc m c main_v0))
      ⊢ ((((c : Thread nD τ).loc main_v0) ↦{fullShare} Wc m c main_v0) : sProp 𝕄) :=
    (pointsTo_share (PosShare.mem_left_op_right fullShare)).2
  rw [held_split1, arrays1_eq, hr]
  dsimp only
  rw [h0, h1, h2]
  refine BIBase.Entails.trans ?_ (sep_mono (sep_mono hsh .rfl) .rfl)
  iintro ⟨⟨Hl, Hr, H1⟩, Hrest⟩
  isplitl [Hl Hr H1]
  · isplitl [Hl Hr]
    · isplitl [Hl]; · iexact Hl
      iexact Hr
    iexact H1
  iexact Hrest

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    refine (sep_mono (sep_mono (entry1 m c) .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

/-! ## The launch -/

/-- What rides along at every item boundary. -/
abbrev Eb : Fin 3 → Dev nD → sProp 𝕄 := fun _ c => R c

set_option backward.isDefEq.respectTransparency.types false in
/-- From any memory with zero counters every weakly fair execution of the program terminates, nothing faulting; the result
    buffer ends at the last valuation's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v5) = Gen.V3 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ 𝒱₀ L lv m ρ main
    (Gen.segs m (outs m) 𝒱₀ L lv Eb () (pdats m) (reg0 m) (reg1 m))
    (fun c Q => by
      rewrite [main_chain c, Seg.run_eq_chain,
        show (Gen.segs m (outs m) 𝒱₀ L lv Eb () (pdats m) (reg0 m) (reg1 m) c).map Seg.prog = [
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V3 m (outs m) c))
    (hch := fun c => ⟨.rfl, .rfl, Entails.of_eq (by
      show iprop(StableHlo.held (c : Thread nD τ) (Pipeline.ucRefs τ sig) (Wc m c) ∗ R c) = iprop(StableHlo.held (c : Thread nD τ) (Pipeline.ucRefs τ sig) (Gen.V2 m (outs m) c) ∗ Eb 2 c)
      rw [V2_eq]), sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨Hh, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun s h c =>
      ⟨h c (Proc.devRef .tc main_v5) (Finset.mem_filter.mpr ⟨StableHlo.devRef_mem_tcRefs main_v5, by decide⟩),
        (h c (Proc.devRef .tc main_arg0) (Finset.mem_filter.mpr ⟨StableHlo.devRef_mem_tcRefs main_arg0, by decide⟩)).trans (Gen.V3_main_arg0 m (outs m) c),
        (h c (Proc.devRef .tc main_arg1) (Finset.mem_filter.mpr ⟨StableHlo.devRef_mem_tcRefs main_arg1, by decide⟩)).trans (Gen.V3_main_arg1 m (outs m) c)⟩)

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  The loss both programs compute, as functions of the weight matrix `w : [256, 16384]` and the scalar `lw`, on the
  extended reals. Column `j` of `w` is scaled to unit length, its Euclidean norm clamped below by a small positive
  constant; `gram w i j` is the inner product of the scaled columns `i` and `j`. One program sums, over the
  columns `q`, the logarithm of `∑ j, exp (gram w j q)`, divides by the number of columns and subtracts one before
  scaling by `lw`; the other subtracts one inside the exponential and divides last. On finite inputs the two agree,
  because `exp (g - 1) = exp g · e⁻¹`, the logarithm of a positive product splits, and the Gram matrix is symmetric.
-/
import Idealize.ShloMosaic.PureOps.Ideal
import Idealize.ShloMosaic.PureOps.Ideal.Laws
import Idealize.ShloMosaic.Lib.ValueIdx

noncomputable section

namespace Cert.GramSpec

open Idealize.ShloMosaic Idealize.ShloMosaic.ValueIdx

/-- The weight matrix's shape. -/
abbrev W : Shape := ⟨2, ![256, 16384]⟩

/-- The lower clamp of a column's norm (the f32 nearest to 1e-8). -/
def eps : EReal := Ideal.ofBits .f32 0x322BCC77#32
/-- The f32 pattern of 1. -/
def one : EReal := Ideal.ofBits .f32 0x3F800000#32
/-- The f32 pattern of 16384, the number of columns. -/
def cols : EReal := Ideal.ofBits .f32 0x46800000#32

/-- Column `j`'s Euclidean norm, clamped below by `eps`. -/
def colNorm (w : W.Idx → EReal) (j : Fin 16384) : EReal :=
  max (Ideal.sqrt (∑ d : Fin 256, w (ix2 d j) * w (ix2 d j))) eps

/-- Entry `(d, j)` of the matrix with every column scaled to unit length. -/
def unitCol (w : W.Idx → EReal) (d : Fin 256) (j : Fin 16384) : EReal :=
  Ideal.div (w (ix2 d j)) (colNorm w j)

/-- The inner product of the scaled columns `i` and `j`. -/
def gram (w : W.Idx → EReal) (i j : Fin 16384) : EReal :=
  ∑ d : Fin 256, unitCol w d i * unitCol w d j

/-- The loss with the shift by one taken outside the logarithm and the division by the column count before it. -/
def lossShiftOutside (w : W.Idx → EReal) (lw : EReal) : EReal :=
  lw * (Ideal.div (∑ q : Fin 16384, Ideal.log (∑ j : Fin 16384, Ideal.exp (gram w j q))) cols - one)

/-- The loss with the shift by one inside the exponential and the division by the column count last. -/
def lossShiftInside (w : W.Idx → EReal) (lw : EReal) : EReal :=
  Ideal.div (lw * ∑ i : Fin 16384, Ideal.log (∑ j : Fin 16384, Ideal.exp (gram w i j - one))) cols

end Cert.GramSpec

end
-- ==== Proof.Payloads.lean ====
/-
  The two kernel bodies' arithmetic, read one element at a time on the extended reals, where every
  operation is exact and a change of float format is the identity.

  The normalize body divides each entry `x (d, j)` of a `[256, 2048]` block by its column's Euclidean
  norm `√(∑ d', x (d', j)²)`, clamped below by a small positive constant.

  The Gram body takes a `[256, 256]` block `lhs` of query columns and eight `[256, 2048]` chunks of key
  columns. For each chunk it forms the inner products `∑ d, chunk (d, m) · lhs (d, q)` (both operands
  contracted along their first axis), exponentiates them and sums over the chunk's 2048 key columns
  `m`; the eight chunk sums are added in order to a running sum that starts at zero, and the logarithm
  of the total is the result at query column `q`.
-/
import proofs.«152298_j65429531787296_2_alg».proof.Proof.Gen.KernelIdeal.Skeleton
import proofs.«152298_j65429531787296_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The normalize body -/

/-- The sum of a `[256, 2048]` array over its first axis, read at column `j`, is the sum of the
    column's 256 entries. -/
theorem colSum_apply (y : FVec Ideal S256x2048 .f32) (hφ : FKind.Formats .f32)
    (hacc : (0x00000000#32 : BitVec 32) = 0x00000000#32) (j : Fin 2048) :
    multiReduction (F := Ideal) .add [0] S2048 y 0x00000000#32 reduces_S256x2048_S2048 hφ hacc (ix1 j)
      = ∑ d : Fin 256, y (ix2 d j) := by
  refine (Ideal.multiReduction_add_single y 0x00000000#32 reduces_S256x2048_S2048 hφ hacc (ix1 j)).trans ?_
  refine Finset.sum_congr rfl fun d _ => congrArg y ?_
  funext a
  apply Fin.ext
  match a with
  | ⟨0, _⟩ => rfl
  | ⟨1, _⟩ => rfl

/-- Entry `(d, j)` of the normalize body's result: the entry divided by its column's norm, the norm
    clamped below by `eps`. The clamped norm is one row `[1, 2048]` repeated over the 256 rows. -/
theorem normalize_pay_apply (x0 : Vec Ideal S256x2048 .f32) (d : Fin 256) (j : Fin 2048) :
    k0_pay1 (F := Ideal) x0 (ix2 d j)
      = Ideal.div (x0 (ix2 d j)) (max (Ideal.sqrt (∑ d' : Fin 256, x0 (ix2 d' j) * x0 (ix2 d' j))) Cert.GramSpec.eps) := by
  unfold k0_pay1 Cert.GramSpec.eps
  show Ideal.div (x0 (ix2 d j)) (broadcastTo S256x2048 _ broadcasts_S1x2048_S256x2048 (ix2 d j)) = _
  refine congrArg (Ideal.div (x0 (ix2 d j))) ?_
  refine (broadcastTo_1b_ab_apply _ broadcasts_S1x2048_S256x2048 d j).trans ?_
  show max (Ideal.sqrt (shapeCast S1x2048 _ shapeCasts_S2048_S1x2048 (ix2 (0 : Fin 1) j))) (Ideal.ofBits .f32 0x322BCC77#32) = _
  refine congrArg (fun t => max (Ideal.sqrt t) (Ideal.ofBits .f32 0x322BCC77#32)) ?_
  refine (shapeCast_a_1a_apply _ shapeCasts_S2048_S1x2048 (0 : Fin 1) j).trans ?_
  exact colSum_apply (mulf x0 x0) _ _ j

/-! ## The Gram body -/

/-- One chunk's contribution at query column q: the sum over the chunk's 2048 key columns of the exponential of the inner product. -/
def chunkSum (lhs : S256x256.Idx → EReal) (ch : S256x2048.Idx → EReal) (q : Fin 256) : EReal :=
  ∑ m : Fin 2048, Ideal.exp (∑ d : Fin 256, ch (ix2 d m) * lhs (ix2 d q))

/-- At output entry `i` and contraction position `k` the chunk is read at row `k` … -/
theorem gramDot_lhs0 (i : S2048x256.Idx) (k : dot_S256x2048_S256x256_S2048x256_0_0_1_1_n_n.contr.Idx) :
    (dot_S256x2048_S256x256_S2048x256_0_0_1_1_n_n.lhsIdx i k 0).val = (k ⟨0, by decide⟩).val :=
  dot_S256x2048_S256x256_S2048x256_0_0_1_1_n_n.lhsIdx_val_of_single rfl i k

/-- … and at the column the output's first coordinate names; -/
theorem gramDot_lhs1 (i : S2048x256.Idx) (k : dot_S256x2048_S256x256_S2048x256_0_0_1_1_n_n.contr.Idx) :
    (dot_S256x2048_S256x256_S2048x256_0_0_1_1_n_n.lhsIdx i k 1).val = (i 0).val := by
  unfold DotDims.lhsIdx
  rw [dif_neg (show ¬(1 : Fin S256x2048.rank) ∈ dot_S256x2048_S256x256_S2048x256_0_0_1_1_n_n.lhsBatch by decide),
    dif_pos (show (1 : Fin S256x2048.rank) ∈ dot_S256x2048_S256x256_S2048x256_0_0_1_1_n_n.lhsNonContracting by decide)]
  rfl

/-- the query block is read at row `k` … -/
theorem gramDot_rhs0 (i : S2048x256.Idx) (k : dot_S256x2048_S256x256_S2048x256_0_0_1_1_n_n.contr.Idx) :
    (dot_S256x2048_S256x256_S2048x256_0_0_1_1_n_n.rhsIdx i k 0).val = (k ⟨0, by decide⟩).val :=
  dot_S256x2048_S256x256_S2048x256_0_0_1_1_n_n.rhsIdx_val_of_single rfl i k

/-- … and at the column the output's second coordinate names. -/
theorem gramDot_rhs1 (i : S2048x256.Idx) (k : dot_S256x2048_S256x256_S2048x256_0_0_1_1_n_n.contr.Idx) :
    (dot_S256x2048_S256x256_S2048x256_0_0_1_1_n_n.rhsIdx i k 1).val = (i 1).val := by
  unfold DotDims.rhsIdx
  rw [dif_neg (show ¬(1 : Fin S256x256.rank) ∈ dot_S256x2048_S256x256_S2048x256_0_0_1_1_n_n.rhsBatch by decide),
    dif_pos (show (1 : Fin S256x256.rank) ∈ dot_S256x2048_S256x256_S2048x256_0_0_1_1_n_n.rhsNonContracting by decide)]
  rfl

/-- The product of a chunk and the query block into a zero accumulator, both contracted along their
    first axis: entry `(m, q)` is the inner product of the chunk's column `m` and the block's column `q`. -/
theorem gramDot_apply (ch : FVec Ideal S256x2048 .bf16) (lhs : FVec Ideal S256x256 .bf16) (m : Fin 2048) (q : Fin 256) :
    matmul (F := Ideal) dot_S256x2048_S256x256_S2048x256_0_0_1_1_n_n none ch lhs (constant (F := Ideal) S2048x256 .f32 0x00000000#32) (ix2 m q)
      = ∑ d : Fin 256, ch (ix2 d m) * lhs (ix2 d q) := by
  refine (Ideal.matmul_constant_zero_apply dot_S256x2048_S256x256_S2048x256_0_0_1_1_n_n none ch lhs (ix2 m q)).trans ?_
  rw [← Equiv.sum_comp (contrEquiv1 dot_S256x2048_S256x256_S2048x256_0_0_1_1_n_n 256 rfl rfl).symm]
  refine Finset.sum_congr rfl fun k _ => ?_
  have hk := contrEquiv1_symm_val dot_S256x2048_S256x256_S2048x256_0_0_1_1_n_n 256 rfl rfl k
  have el : dot_S256x2048_S256x256_S2048x256_0_0_1_1_n_n.lhsIdx (ix2 m q) ((contrEquiv1 dot_S256x2048_S256x256_S2048x256_0_0_1_1_n_n 256 rfl rfl).symm k) = ix2 k m :=
    funext fun a => Fin.ext (by
      match a with
      | ⟨0, _⟩ => exact (gramDot_lhs0 _ _).trans hk
      | ⟨1, _⟩ => exact gramDot_lhs1 _ _)
  have er : dot_S256x2048_S256x256_S2048x256_0_0_1_1_n_n.rhsIdx (ix2 m q) ((contrEquiv1 dot_S256x2048_S256x256_S2048x256_0_0_1_1_n_n 256 rfl rfl).symm k) = ix2 k q :=
    funext fun a => Fin.ext (by
      match a with
      | ⟨0, _⟩ => exact (gramDot_rhs0 _ _).trans hk
      | ⟨1, _⟩ => exact gramDot_rhs1 _ _)
  rw [el, er]

/-- One chunk's step: the exponentials of the chunk's inner products with the query block, summed over
    the chunk's key columns and laid out as one row `[1, 256]`, read at query column `q`, is `chunkSum`. -/
theorem chunk_apply (lhs : FVec Ideal S256x256 .bf16) (ch : FVec Ideal S256x2048 .bf16)
    (hφ : FKind.Formats .f32) (hacc : (0x00000000#32 : BitVec 32) = 0x00000000#32) (u : Fin 1) (q : Fin 256) :
    shapeCast S1x256 (multiReduction (F := Ideal) .add [0] S256
        (exp (matmul dot_S256x2048_S256x256_S2048x256_0_0_1_1_n_n none ch lhs (constant (F := Ideal) S2048x256 .f32 0x00000000#32)))
        0x00000000#32 reduces_S2048x256_S256 hφ hacc) shapeCasts_S256_S1x256 (ix2 u q)
      = chunkSum lhs ch q := by
  refine (shapeCast_a_1a_apply _ shapeCasts_S256_S1x256 u q).trans ?_
  refine (Ideal.multiReduction_add_single _ 0x00000000#32 reduces_S2048x256_S256 hφ hacc (ix1 q)).trans ?_
  unfold chunkSum
  refine Finset.sum_congr rfl fun m _ => ?_
  have e : reduces_S2048x256_S256.lift (ix1 q) m = ix2 (n0 := 2048) m q :=
    funext fun a => Fin.ext (by
      match a with
      | ⟨0, _⟩ => rfl
      | ⟨1, _⟩ => rfl)
  refine (congrArg (fun i => Ideal.exp (matmul (F := Ideal) dot_S256x2048_S256x256_S2048x256_0_0_1_1_n_n none ch lhs (constant (F := Ideal) S2048x256 .f32 0x00000000#32) i)) e).trans ?_
  exact congrArg Ideal.exp (gramDot_apply ch lhs m q)

/-- The query block passes through a cast to its own shape unchanged, -/
theorem pay2_eq (v0 : Vec Ideal S256x256 .bf16) : k1_pay2 (F := Ideal) v0 = v0 := by
  unfold k1_pay2
  exact shapeCast_self v0 shapeCasts_S256x256_S256x256

/-- and so do the fourth chunk -/
theorem pay4_eq (v36 : Vec Ideal S256x2048 .bf16) : k1_pay4 (F := Ideal) v36 = v36 := by
  unfold k1_pay4
  exact shapeCast_self v36 shapeCasts_S256x2048_S256x2048

/-- and the eighth. -/
theorem pay6_eq (v76 : Vec Ideal S256x2048 .bf16) : k1_pay6 (F := Ideal) v76 = v76 := by
  unfold k1_pay6
  exact shapeCast_self v76 shapeCasts_S256x2048_S256x2048

/-- The running sum after the first three chunks: zero plus their three chunk sums, in order. -/
theorem pay3_apply (v0 : Vec Ideal S256x256 .bf16) (v6 v16 v26 : Vec Ideal S256x2048 .bf16) (u : Fin 1) (q : Fin 256) :
    k1_pay3 (F := Ideal) v0 v6 v16 v26 (ix2 u q)
      = 0 + chunkSum v0 v6 q + chunkSum v0 v16 q + chunkSum v0 v26 q := by
  unfold k1_pay3
  simp only [shapeCast_self, pay2_eq]
  refine (addf_apply _ _ (ix2 u q)).trans ?_
  refine congrArg₂ (· + ·) ?_ (chunk_apply v0 v26 _ _ u q)
  refine (addf_apply _ _ (ix2 u q)).trans ?_
  refine congrArg₂ (· + ·) ?_ (chunk_apply v0 v16 _ _ u q)
  refine (addf_apply _ _ (ix2 u q)).trans ?_
  refine congrArg₂ (· + ·) ?_ (chunk_apply v0 v6 _ _ u q)
  exact Ideal.ofBits_zero_f32

/-- The running sum after four more chunks: the sum so far plus their four chunk sums, in order. -/
theorem pay5_apply (v1 : FVec Ideal S256x256 .bf16) (v32 : FVec Ideal S1x256 .f32) (v37 : FVec Ideal S256x2048 .bf16)
    (v46 v56 v66 : Vec Ideal S256x2048 .bf16) (u : Fin 1) (q : Fin 256) :
    k1_pay5 (F := Ideal) v1 v32 v37 v46 v56 v66 (ix2 u q)
      = v32 (ix2 u q) + chunkSum v1 v37 q + chunkSum v1 v46 q + chunkSum v1 v56 q + chunkSum v1 v66 q := by
  unfold k1_pay5
  simp only [shapeCast_self]
  refine (addf_apply _ _ (ix2 u q)).trans ?_
  refine congrArg₂ (· + ·) ?_ (chunk_apply v1 v66 _ _ u q)
  refine (addf_apply _ _ (ix2 u q)).trans ?_
  refine congrArg₂ (· + ·) ?_ (chunk_apply v1 v56 _ _ u q)
  refine (addf_apply _ _ (ix2 u q)).trans ?_
  refine congrArg₂ (· + ·) ?_ (chunk_apply v1 v46 _ _ u q)
  refine (addf_apply _ _ (ix2 u q)).trans ?_
  exact congrArg₂ (· + ·) rfl (chunk_apply v1 v37 _ _ u q)

/-- The stored row: the logarithm of the running sum plus the last chunk's sum, laid out as `[1, 1, 256]`. -/
theorem pay1_apply (v1 : FVec Ideal S256x256 .bf16) (v72 : FVec Ideal S1x256 .f32) (v77 : FVec Ideal S256x2048 .bf16) (q : Fin 256) :
    k1_pay1 (F := Ideal) v1 v72 v77 (ix3 (0 : Fin 1) (0 : Fin 1) q)
      = Ideal.log (v72 (ix2 (0 : Fin 1) q) + chunkSum v1 v77 q) := by
  unfold k1_pay1
  refine (shapeCast_ab_1ab_apply _ shapeCasts_S1x256_S1x1x256 (0 : Fin 1) (0 : Fin 1) q).trans ?_
  refine congrArg Ideal.log ?_
  refine (addf_apply _ _ (ix2 (0 : Fin 1) q)).trans ?_
  exact congrArg₂ (· + ·) rfl (chunk_apply v1 v77 _ _ (0 : Fin 1) q)

/-- The Gram body's result at query column `q`: the logarithm of zero plus the eight chunk sums, added in order. -/
theorem gram_pay_apply (v0 : Vec Ideal S256x256 .bf16) (v6 v16 v26 v36 v46 v56 v66 v76 : Vec Ideal S256x2048 .bf16) (q : Fin 256) :
    k1_pay1 (F := Ideal) (k1_pay2 v0) (k1_pay5 (k1_pay2 v0) (k1_pay3 v0 v6 v16 v26) (k1_pay4 v36) v46 v56 v66) (k1_pay6 v76) (ix3 0 0 q)
      = Ideal.log (0 + chunkSum v0 v6 q + chunkSum v0 v16 q + chunkSum v0 v26 q + chunkSum v0 v36 q
          + chunkSum v0 v46 q + chunkSum v0 v56 q + chunkSum v0 v66 q + chunkSum v0 v76 q) := by
  rw [pay2_eq, pay4_eq, pay6_eq, pay1_apply, pay5_apply, pay3_apply]

end Cert.KernelIdeal.PayValue

end
-- ==== Proof.KIValue0.lean ====
import proofs.«152298_j65429531787296_2_alg».proof.Proof.KIRegion0
import proofs.«152298_j65429531787296_2_alg».proof.Proof.Spec
import proofs.«152298_j65429531787296_2_alg».proof.Proof.Payloads
import Idealize.ShloMosaic.Lib.Pipeline.Value

/-
  The first kernel region's result array, entry by entry: column `j` of the weight matrix scaled to unit length.

  The eight grid points write back the eight column blocks of width 2048. Point `t` stages block `t` of the weight
  matrix, whose entry `(d, m)` is the matrix's entry `(d, 2048 t + m)`; the body's arithmetic on a block works column
  by column, so what point `t` writes back is block `t` of the matrix of scaled columns; the eight blocks cover the
  array, the one that covers column `j` being block `j / 2048`.
-/

noncomputable section

namespace Cert.KernelIdeal.HandValue

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The matrix of scaled columns, as one function of the weight matrix, index by index. -/
def scaled (a0 : S256x16384.Idx → EReal) : S256x16384.Idx → EReal :=
  fun i => Cert.GramSpec.unitCol a0 ⟨(i 0).val, idx2_lt0 i⟩ ⟨(i 1).val, idx2_lt1 i⟩

/-- The printed index maps over the grid: both windows' block index at point `t` is `(0, t)`. -/
theorem index_facts0 : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- The body's arithmetic on a block that holds columns `2048 k …` of a matrix gives those columns scaled. -/
theorem point_value0 (a0 : S256x16384.Idx → EReal) (x0 : Vec Ideal S256x2048 .f32) (k : Nat) (hk : k < 8)
    (hx : ∀ (d : Fin 256) (m : Fin 2048), x0 (ix2 d m) = a0 (ix2 d (⟨k * 2048 + m.val, by omega⟩ : Fin 16384)))
    (d : Fin 256) (m : Fin 2048) :
    k0_pay1 (F := Ideal) x0 (ix2 d m) = Cert.GramSpec.unitCol a0 d (⟨k * 2048 + m.val, by omega⟩ : Fin 16384) := by
  rw [Cert.KernelIdeal.PayValue.normalize_pay_apply, hx]
  unfold Cert.GramSpec.unitCol Cert.GramSpec.colNorm
  simp only [hx]

/-- The input window's block at point `t` holds columns `2048 t …` of the weight matrix. -/
theorem input_block0 (c : Dev nD) (t : Fin cfg0.N) (d : Fin 256) (m : Fin 2048) (ht : t.val < 8) :
    (iblk0 (F := Ideal) V c 0 t : Vec Ideal S256x2048 .f32) (ix2 d m)
      = (V c main_arg0 : S256x16384.Idx → EReal) (ix2 d (⟨t.val * 2048 + m.val, by omega⟩ : Fin 16384)) := by
  obtain ⟨e0, e1, -, -⟩ := index_facts0 t
  unfold iblk0
  rw [View.read_apply]
  show (V c main_arg0 : S256x16384.Idx → EReal) _ = _
  refine congrArg _ (funext fun a => Fin.ext ?_)
  match a with
  | ⟨0, _⟩ => show win0_0.index t (0 : Fin 2) * 256 + 1 * d.val = d.val; omega
  | ⟨1, _⟩ => show win0_0.index t (1 : Fin 2) * 2048 + 1 * m.val = t.val * 2048 + m.val; omega

/-- What point `t` writes back is block `t` of the matrix of scaled columns. -/
theorem flushed0_eq (c : Dev nD) (t : Fin cfg0.N) :
    (dat0 (F := Ideal) V c).flushed 1 t = ((cfg0.win 1).blk t).view.read (Elt Ideal) (scaled (V c main_arg0)) := by
  have ht : t.val < 8 := by have := t.isLt; have hN : cfg0.N = 8 := N_0; omega
  obtain ⟨-, -, e2, e3⟩ := index_facts0 t
  show (cfg0.win 1).cut (grid0.coords t) ((dat0 V c).after 1 t) = _
  rw [after0_1]
  unfold out0_1
  rw [View.canon_unit_zero zeros2]
  simp only [View.ld_unit_zero (S := S256x2048) zeros2]
  funext j
  obtain ⟨d, m, rfl⟩ : ∃ (d : Fin 256) (m : Fin 2048), j = ix2 d m := ⟨j 0, j 1, eq_ix2 j⟩
  rw [View.read_apply]
  show k0_pay1 (F := Ideal) (iblk0 V c 0 t) (ix2 d m) = _
  refine (point_value0 (V c main_arg0) (iblk0 V c 0 t) t.val ht (fun d' m' => input_block0 V c t d' m' ht) d m).trans ?_
  unfold scaled
  have hi : ((cfg0.win 1).blk t).view.emb (ix2 d m) = ix2 d (⟨t.val * 2048 + m.val, by omega⟩ : Fin 16384) := by
    funext a; apply Fin.ext
    match a with
    | ⟨0, _⟩ => show win0_1.index t (0 : Fin 2) * 256 + 1 * d.val = d.val; omega
    | ⟨1, _⟩ => show win0_1.index t (1 : Fin 2) * 2048 + 1 * m.val = t.val * 2048 + m.val; omega
  rw [hi]
  rfl

/-- An index of the array is in point `t`'s block iff each coordinate is in the block's range on its axis. -/
theorem mem_block0 (t : Fin cfg0.N) (i : S256x16384.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v0).slice (win0_1.rect t)).set ↔ _
  rw [View.set_slice_whole, Rect.mem_set_unit]
  exact Iff.rfl

/-- Every index of the array is in some point's block: column `j` is in block `j / 2048`. -/
theorem cover0 (i : S256x16384.Idx) : ∃ t : Fin cfg0.N, (cfg0.win 1).flush t = true ∧ i ∈ ((cfg0.win 1).blk t).view.set := by
  have hi0 : (i 0).val < 256 := (i 0).isLt
  have hi1 : (i 1).val < 16384 := (i 1).isLt
  have hN : cfg0.N = 8 := N_0
  let t : Fin cfg0.N := ⟨(i 1).val / 2048, by rw [hN]; omega⟩
  have htv : t.val = (i 1).val / 2048 := rfl
  obtain ⟨-, -, e2, e3⟩ := index_facts0 t
  refine ⟨t, flush0_1 t, ?_⟩
  rw [mem_block0]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

/-- After the first region the result array holds, at `(d, j)`, entry `d` of column `j` scaled to unit length. -/
theorem final0 (c : Dev nD) (d : Fin 256) (j : Fin 16384) :
    (dat0 (F := Ideal) V c).arrAt 1 cfg0.N (ix2 d j) = Cert.GramSpec.unitCol (V c main_arg0) d j := by
  rw [(dat0 (F := Ideal) V c).arrAt_eq_of_cover 1 (scaled (V c main_arg0)) (fun t _ => flushed0_eq V c t) cover0]
  rfl

end Cert.KernelIdeal.HandValue

end
-- ==== Proof.SumIndex.lean ====
import Mathlib.Algebra.BigOperators.Fin
import Idealize.ShloMosaic.Lib.ValueIdx

/-!
Re-indexing of finite sums in an additive commutative monoid.

A sum over the 16384 columns splits into eight consecutive runs of 2048 columns: column
`c * 2048 + m` is the `m`-th column of run `c`. Likewise a sum over a `[64, 1, 256]` array of
indices, whose middle axis has one point, is the sum over the 16384 numbers `b * 256 + r`.
Both are the bijection between pairs `(c, m)` and the numbers `c * n + m`.
-/

open scoped BigOperators

namespace Cert.SumIndex

open Idealize.ShloMosaic Idealize.ShloMosaic.ValueIdx

/-- A double sum over `a` runs of length `n` is the single sum over the `a * n` numbers `c * n + m`. -/
theorem sum_runs {M : Type*} [AddCommMonoid M] (a n : Nat) (f : Fin (a * n) → M)
    (hb : ∀ (c : Fin a) (m : Fin n), c.val * n + m.val < a * n) :
    ∑ c : Fin a, ∑ m : Fin n, f ⟨c.val * n + m.val, hb c m⟩ = ∑ j : Fin (a * n), f j := by
  rw [← Fintype.sum_prod_type' (fun (c : Fin a) (m : Fin n) => f ⟨c.val * n + m.val, hb c m⟩)]
  refine Fintype.sum_equiv (finProdFinEquiv (m := a) (n := n)) _ _ fun p => congrArg f (Fin.ext ?_)
  show p.1.val * n + p.2.val = p.2.val + n * p.1.val
  rw [Nat.mul_comm, Nat.add_comm]

/-- The 16384 columns as eight runs of 2048, the running sum started at zero and the runs added in order. -/
theorem sum_eight_chunks {M : Type*} [AddCommMonoid M] (f : Fin 16384 → M) :
    (0 + ∑ m : Fin 2048, f ⟨0 * 2048 + m.val, by omega⟩) + (∑ m : Fin 2048, f ⟨1 * 2048 + m.val, by omega⟩) + (∑ m : Fin 2048, f ⟨2 * 2048 + m.val, by omega⟩) + (∑ m : Fin 2048, f ⟨3 * 2048 + m.val, by omega⟩)
      + (∑ m : Fin 2048, f ⟨4 * 2048 + m.val, by omega⟩) + (∑ m : Fin 2048, f ⟨5 * 2048 + m.val, by omega⟩) + (∑ m : Fin 2048, f ⟨6 * 2048 + m.val, by omega⟩) + (∑ m : Fin 2048, f ⟨7 * 2048 + m.val, by omega⟩)
      = ∑ j : Fin 16384, f j := by
  have h := sum_runs 8 2048 f (fun c m => by have := c.isLt; have := m.isLt; omega)
  rw [Fin.sum_univ_eight] at h
  rw [zero_add]
  exact h

/-- An index of a `[n0, 1, n2]` array is the pair of its outer coordinates: the middle axis has one point. -/
def idxEquiv3 {n0 n2 : Nat} : (⟨3, ![n0, 1, n2]⟩ : Shape).Idx ≃ Fin n0 × Fin n2 where
  toFun i := (i 0, i 2)
  invFun p := ix3 p.1 (0 : Fin 1) p.2
  left_inv i := by
    funext a
    match a with
    | ⟨0, _⟩ => rfl
    | ⟨1, _⟩ =>
      apply Fin.ext
      show (0 : Nat) = (i 1).val
      have h : (i 1).val < 1 := (i 1).isLt
      omega
    | ⟨2, _⟩ => rfl
  right_inv _ := rfl

/-- The number `b * 256 + r` of the index `(b, 0, r)` is below 16384. -/
theorem block_lt (i : (⟨3, ![64, 1, 256]⟩ : Shape).Idx) : (i 0).val * 256 + (i 2).val < 16384 := by
  have h0 : (i 0).val < 64 := (i 0).isLt
  have h2 : (i 2).val < 256 := (i 2).isLt
  omega

/-- A sum over the `[64, 1, 256]` indices of a function of `b * 256 + r` is the sum over all 16384 numbers. -/
theorem sum_blocks_64x1x256 {M : Type*} [AddCommMonoid M] (g : Fin 16384 → M) :
    ∑ i : (⟨3, ![64, 1, 256]⟩ : Shape).Idx, g ⟨(i 0).val * 256 + (i 2).val, block_lt i⟩ = ∑ Q : Fin 16384, g Q := by
  refine (Fintype.sum_equiv (idxEquiv3 (n0 := 64) (n2 := 256)) _
    (fun p : Fin 64 × Fin 256 => g ⟨p.1.val * 256 + p.2.val, by have := p.1.isLt; have := p.2.isLt; omega⟩)
    (fun i => rfl)).trans ?_
  refine (Fintype.sum_prod_type' (fun (c : Fin 64) (m : Fin 256) =>
    g ⟨c.val * 256 + m.val, by have := c.isLt; have := m.isLt; omega⟩)).trans ?_
  exact sum_runs 64 256 g (fun c m => by have := c.isLt; have := m.isLt; omega)

end Cert.SumIndex
-- ==== Proof.KIValue1.lean ====
import proofs.«152298_j65429531787296_2_alg».proof.Proof.KIRegion1
import proofs.«152298_j65429531787296_2_alg».proof.Proof.Payloads
import proofs.«152298_j65429531787296_2_alg».proof.Proof.SumIndex
import proofs.«152298_j65429531787296_2_alg».proof.Proof.Spec
import Idealize.ShloMosaic.Lib.Pipeline.Value

/-
  The second kernel region's result array, entry by entry: at `(i, 0, q)` the logarithm of the sum, over all 16384
  key columns `j`, of the exponential of the inner product of column `j` with the query column `256 i + q` of the
  matrix the region reads.

  The 64 grid points write back the 64 rows of the result. Point `t` stages the query block of columns `256 t …` and
  keeps the whole matrix resident; its body loads the resident matrix as eight key chunks of width 2048, chunk `k`
  holding columns `2048 k …`, and adds the chunks' sums of exponentials in order, which is the sum over all the
  columns. So what point `t` writes back is row `t` of the result, and the 64 rows cover the array.
-/

noncomputable section

namespace Cert.KernelIdeal.HandValue

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

theorem zeros_rank2 : (![0, 0] : Fin 2 → Nat) = fun _ => 0 := funext fun a => by fin_cases a <;> rfl
theorem zeros_rank3 : (![0, 0, 0] : Fin 3 → Nat) = fun _ => 0 := funext fun a => by fin_cases a <;> rfl

/-- Key column `j`'s term for query column `Q` of a matrix: the exponential of the two columns' inner product. -/
def keyTerm (a : S256x16384.Idx → EReal) (Q j : Fin 16384) : EReal :=
  Ideal.exp (∑ d : Fin 256, a (ix2 d j) * a (ix2 d Q))

/-- The logarithm of the sum of the key columns' terms for query column `Q`. -/
def logSumAt (a : S256x16384.Idx → EReal) (Q : Fin 16384) : EReal :=
  Ideal.log (∑ j : Fin 16384, keyTerm a Q j)

theorem logSumAt_def (a : S256x16384.Idx → EReal) (Q : Fin 16384) :
    logSumAt a Q = Ideal.log (∑ j : Fin 16384, Ideal.exp (∑ d : Fin 256, a (ix2 d j) * a (ix2 d Q))) := rfl

/-- The result as one function of the matrix the region reads, index by index: entry `(i, 0, q)` is for query column
    `256 i + q`. -/
def rowLogSum (a : S256x16384.Idx → EReal) : S64x1x256.Idx → EReal :=
  fun i => logSumAt a (⟨(i 0).val * 256 + (i 2).val, Cert.SumIndex.block_lt i⟩ : Fin 16384)

theorem rowLogSum_apply (a : S256x16384.Idx → EReal) (i : Fin 64) (q : Fin 256) :
    rowLogSum a (ix3 i (0 : Fin 1) q) = logSumAt a (⟨i.val * 256 + q.val, by omega⟩ : Fin 16384) := rfl

/-- The printed index maps over the grid: the query window's block index at point `t` is `(0, t)`, the resident
    window's `(0, 0)`, the result window's `(t, 0, 0)`. -/
theorem index_facts1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- Key chunk `k` is loaded at offset `(0, 2048 k)`. -/
theorem chunk_offset : ∀ k : Fin 8, k1_off1 (BitVec.ofNat 32 k.val) = ![0, k.val * 2048] := by decide

/-- Key chunk `k` of a matrix holds its columns `2048 k …`. -/
theorem chunk_load (x1 : Vec Ideal S256x16384 .bf16) (k : Fin 8) (d : Fin 256) (m : Fin 2048) :
    View.ld x1 (r1_1 k) (ix2 d m) = x1 (ix2 d (⟨k.val * 2048 + m.val, by omega⟩ : Fin 16384)) := by
  have hoff := chunk_offset k
  show x1 ((r1_1 k).idx (ix2 d m)) = _
  refine congrArg x1 (funext fun a => Fin.ext ?_)
  match a with
  | ⟨0, _⟩ =>
    show k1_off1 (BitVec.ofNat 32 k.val) (0 : Fin 2) + 1 * d.val = d.val
    rw [hoff]; show 0 + 1 * d.val = d.val; omega
  | ⟨1, _⟩ =>
    show k1_off1 (BitVec.ofNat 32 k.val) (1 : Fin 2) + 1 * m.val = k.val * 2048 + m.val
    rw [hoff]; show k.val * 2048 + 1 * m.val = k.val * 2048 + m.val; omega

/-- One key chunk's sum, for a query block that holds columns `256 k …` of a matrix and that whole matrix resident. -/
theorem chunk_sum (a : S256x16384.Idx → EReal) (x0 : Vec Ideal S256x256 .bf16) (x1 : Vec Ideal S256x16384 .bf16)
    (k : Nat) (hk : k < 64)
    (hx0 : ∀ (d q : Fin 256), x0 (ix2 d q) = a (ix2 d (⟨k * 256 + q.val, by omega⟩ : Fin 16384)))
    (hx1 : ∀ (d : Fin 256) (j : Fin 16384), x1 (ix2 d j) = a (ix2 d j)) (q : Fin 256) (kk : Fin 8) :
    Cert.KernelIdeal.PayValue.chunkSum x0 (View.ld x1 (r1_1 kk)) q
      = ∑ m : Fin 2048, keyTerm a (⟨k * 256 + q.val, by omega⟩ : Fin 16384) (⟨kk.val * 2048 + m.val, by omega⟩ : Fin 16384) := by
  unfold Cert.KernelIdeal.PayValue.chunkSum keyTerm
  refine Finset.sum_congr rfl fun m _ => congrArg Ideal.exp (Finset.sum_congr rfl fun d _ => ?_)
  rw [chunk_load, hx1, hx0]

/-- The body's arithmetic on a query block that holds columns `256 k …` of a matrix and on that whole matrix. -/
theorem point_value1 (a : S256x16384.Idx → EReal) (x0 : Vec Ideal S256x256 .bf16) (x1 : Vec Ideal S256x16384 .bf16)
    (k : Nat) (hk : k < 64)
    (hx0 : ∀ (d q : Fin 256), x0 (ix2 d q) = a (ix2 d (⟨k * 256 + q.val, by omega⟩ : Fin 16384)))
    (hx1 : ∀ (d : Fin 256) (j : Fin 16384), x1 (ix2 d j) = a (ix2 d j)) (q : Fin 256) :
    pay1 (F := Ideal) x0 x1 (ix3 (0 : Fin 1) (0 : Fin 1) q) = logSumAt a (⟨k * 256 + q.val, by omega⟩ : Fin 16384) := by
  unfold pay1
  simp only [View.ld_unit_zero (S := S256x256) zeros_rank2]
  refine (Cert.KernelIdeal.PayValue.gram_pay_apply x0 (View.ld x1 (r1_1 0)) (View.ld x1 (r1_1 1)) (View.ld x1 (r1_1 2))
    (View.ld x1 (r1_1 3)) (View.ld x1 (r1_1 4)) (View.ld x1 (r1_1 5)) (View.ld x1 (r1_1 6)) (View.ld x1 (r1_1 7)) q).trans ?_
  unfold logSumAt
  refine congrArg Ideal.log ?_
  rw [chunk_sum a x0 x1 k hk hx0 hx1 q 0, chunk_sum a x0 x1 k hk hx0 hx1 q 1, chunk_sum a x0 x1 k hk hx0 hx1 q 2,
    chunk_sum a x0 x1 k hk hx0 hx1 q 3, chunk_sum a x0 x1 k hk hx0 hx1 q 4, chunk_sum a x0 x1 k hk hx0 hx1 q 5,
    chunk_sum a x0 x1 k hk hx0 hx1 q 6, chunk_sum a x0 x1 k hk hx0 hx1 q 7]
  exact Cert.SumIndex.sum_eight_chunks (keyTerm a (⟨k * 256 + q.val, by omega⟩ : Fin 16384))

/-- The query window's block at point `t` holds columns `256 t …` of the matrix. -/
theorem query_block1 (c : Dev nD) (t : Fin cfg1.N) (ht : t.val < 64) (d q : Fin 256) :
    (iblk1 (F := Ideal) V c 0 t : Vec Ideal S256x256 .bf16) (ix2 d q)
      = (V c main_v0 : S256x16384.Idx → EReal) (ix2 d (⟨t.val * 256 + q.val, by omega⟩ : Fin 16384)) := by
  obtain ⟨e0, e1, -⟩ := index_facts1 t
  unfold iblk1
  rw [View.read_apply]
  show (V c main_v0 : S256x16384.Idx → EReal) _ = _
  refine congrArg _ (funext fun a => Fin.ext ?_)
  match a with
  | ⟨0, _⟩ => show win1_0.index t (0 : Fin 2) * 256 + 1 * d.val = d.val; omega
  | ⟨1, _⟩ => show win1_0.index t (1 : Fin 2) * 256 + 1 * q.val = t.val * 256 + q.val; omega

/-- The resident window's block at every point is the whole matrix. -/
theorem resident_block1 (c : Dev nD) (t : Fin cfg1.N) (d : Fin 256) (j : Fin 16384) :
    (iblk1 (F := Ideal) V c 1 t : Vec Ideal S256x16384 .bf16) (ix2 d j)
      = (V c main_v0 : S256x16384.Idx → EReal) (ix2 d j) := by
  obtain ⟨-, -, e2, e3, -⟩ := index_facts1 t
  unfold iblk1
  rw [View.read_apply]
  show (V c main_v0 : S256x16384.Idx → EReal) _ = _
  refine congrArg _ (funext fun a => Fin.ext ?_)
  match a with
  | ⟨0, _⟩ => show win1_1.index t (0 : Fin 2) * 256 + 1 * d.val = d.val; omega
  | ⟨1, _⟩ => show win1_1.index t (1 : Fin 2) * 16384 + 1 * j.val = j.val; omega

/-- What point `t` writes back is row `t` of the result. -/
theorem flushed1_eq (c : Dev nD) (t : Fin cfg1.N) :
    (dat1 (F := Ideal) V c).flushed 2 t = ((cfg1.win 2).blk t).view.read (Elt Ideal) (rowLogSum (V c main_v0)) := by
  have ht : t.val < 64 := by have := t.isLt; have hN : cfg1.N = 64 := N_1; omega
  obtain ⟨-, -, -, -, e4, e5, e6⟩ := index_facts1 t
  show (cfg1.win 2).cut (grid1.coords t) ((dat1 V c).after 2 t) = _
  rw [after1_2]
  unfold out1_2
  rw [View.canon_unit_zero zeros_rank3]
  funext j
  obtain ⟨u0, u1, q, rfl⟩ : ∃ (u0 u1 : Fin 1) (q : Fin 256), j = ix3 u0 u1 q := ⟨j 0, j 1, j 2, eq_ix3 j⟩
  obtain rfl : u0 = 0 := Subsingleton.elim _ _
  obtain rfl : u1 = 0 := Subsingleton.elim _ _
  rw [View.read_apply]
  refine Eq.trans ?_ (cast_eq _ _).symm
  show pay1 (F := Ideal) (iblk1 V c 0 t) (iblk1 V c 1 t) (ix3 (0 : Fin 1) (0 : Fin 1) q) = _
  refine (point_value1 (V c main_v0) (iblk1 V c 0 t) (iblk1 V c 1 t) t.val ht
    (fun d q' => query_block1 V c t ht d q') (fun d j' => resident_block1 V c t d j') q).trans ?_
  have hi : ((cfg1.win 2).blk t).view.emb (ix3 (0 : Fin 1) (0 : Fin 1) q) = ix3 (⟨t.val, ht⟩ : Fin 64) (0 : Fin 1) q := by
    funext a; apply Fin.ext
    match a with
    | ⟨0, _⟩ => show win1_2.index t (0 : Fin 3) * 1 + 1 * 0 = t.val; omega
    | ⟨1, _⟩ => show win1_2.index t (1 : Fin 3) * 1 + 1 * 0 = 0; omega
    | ⟨2, _⟩ => show win1_2.index t (2 : Fin 3) * 256 + 1 * q.val = q.val; omega
  rw [hi]
  exact (rowLogSum_apply (V c main_v0) (⟨t.val, ht⟩ : Fin 64) q).symm

/-- An index of the array is in point `t`'s block iff each coordinate is in the block's range on its axis. -/
theorem mem_block1 (t : Fin cfg1.N) (i : S64x1x256.Idx) :
    i ∈ ((cfg1.win 2).blk t).view.set ↔ ∀ a : Fin 3, win1_2.index t a * S1x1x256.size a ≤ (i a).val ∧ (i a).val < win1_2.index t a * S1x1x256.size a + S1x1x256.size a := by
  show i ∈ ((View.whole main_v1).slice (win1_2.rect t)).set ↔ _
  rw [View.set_slice_whole, Rect.mem_set_unit]
  exact Iff.rfl

/-- Every index of the array is in some point's block: row `i` is point `i`'s. -/
theorem cover1 (i : S64x1x256.Idx) : ∃ t : Fin cfg1.N, (cfg1.win 2).flush t = true ∧ i ∈ ((cfg1.win 2).blk t).view.set := by
  have hi0 : (i 0).val < 64 := (i 0).isLt
  have hi1 : (i 1).val < 1 := (i 1).isLt
  have hi2 : (i 2).val < 256 := (i 2).isLt
  have hN : cfg1.N = 64 := N_1
  let t : Fin cfg1.N := ⟨(i 0).val, by rw [hN]; omega⟩
  have htv : t.val = (i 0).val := rfl
  obtain ⟨-, -, -, -, e4, e5, e6⟩ := index_facts1 t
  refine ⟨t, flush1_2 t, ?_⟩
  rw [mem_block1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 256 ≤ (i 2).val ∧ (i 2).val < win1_2.index t (2 : Fin 3) * 256 + 256; omega

/-- After the second region the result array is `rowLogSum` of the matrix the region reads. -/
theorem final1_array (c : Dev nD) : (dat1 (F := Ideal) V c).arrAt 2 cfg1.N = rowLogSum (V c main_v0) :=
  (dat1 (F := Ideal) V c).arrAt_eq_of_cover 2 (rowLogSum (V c main_v0)) (fun t _ => flushed1_eq V c t) cover1

/-- After the second region the result array holds, at `(i, 0, q)`, the logarithm of the sum over all key columns of the
    exponential of the inner product with query column `256 i + q`. -/
theorem final1 (c : Dev nD) (i : Fin 64) (q : Fin 256) :
    (dat1 (F := Ideal) V c).arrAt 2 cfg1.N (ix3 i (0 : Fin 1) q)
      = logSumAt (V c main_v0) (⟨i.val * 256 + q.val, by omega⟩ : Fin 16384) := by
  rw [final1_array V c, rowLogSum_apply]

/-- The same with the sums written out, for any spelling `a` of the matrix the region reads. -/
theorem final1_explicit (c : Dev nD) (a : S256x16384.Idx → EReal) (ha : (V c main_v0 : S256x16384.Idx → EReal) = a)
    (i : Fin 64) (q : Fin 256) :
    (dat1 (F := Ideal) V c).arrAt 2 cfg1.N (ix3 i (0 : Fin 1) q)
      = Ideal.log (∑ j : Fin 16384, Ideal.exp (∑ d : Fin 256,
          a (ix2 d j) * a (ix2 d (⟨i.val * 256 + q.val, by omega⟩ : Fin 16384)))) := by
  subst ha
  exact (final1 V c i q).trans (logSumAt_def _ _)

/-- When the matrix the region reads is the weight matrix with every column scaled to unit length, the inner products
    are the Gram matrix's entries. -/
theorem logSumAt_of_unit (A w : S256x16384.Idx → EReal)
    (hA : ∀ (d : Fin 256) (j : Fin 16384), A (ix2 d j) = Cert.GramSpec.unitCol w d j) (Q : Fin 16384) :
    logSumAt A Q = Ideal.log (∑ j : Fin 16384, Ideal.exp (Cert.GramSpec.gram w j Q)) := by
  unfold logSumAt keyTerm Cert.GramSpec.gram
  refine congrArg Ideal.log (Finset.sum_congr rfl fun j _ => congrArg Ideal.exp (Finset.sum_congr rfl fun d _ => ?_))
  rw [hA, hA]

end Cert.KernelIdeal.HandValue

end
-- ==== Proof.KITail.lean ====
/-
  What the seven host operations after the two kernel regions leave in the result buffer, on the extended reals.

  The operations are: the constant zero; the sum of the `[64, 1, 256]` buffer of partial results over all three of its
  axes, started at that zero; the constant `16384`; the quotient of the sum by it; the constant one; the difference of the
  quotient and one; and the product of the scalar argument with that difference. Started at zero, the sum over all axes is
  the sum over every index of the buffer; the middle axis has one point, so the indices are the pairs `(b, r)`, and when
  entry `(b, 0, r)` is `L (b * 256 + r)` the sum is the sum of `L` over all `16384` numbers. The two other constants are the
  very bit patterns the specification names `cols` and `one`, so the result is
  `lw * (div (∑ Q, L Q) cols - one)` with `lw` the scalar argument.
-/
import proofs.«152298_j65429531787296_2_alg».proof.Proof.Gen.KernelIdeal.Launch
import proofs.«152298_j65429531787296_2_alg».proof.Proof.Spec
import proofs.«152298_j65429531787296_2_alg».proof.Proof.SumIndex
import Idealize.ShloMosaic.Lib.StableHlo.Run
import Idealize.ShloMosaic.Lib.ValueIdx
import Idealize.ShloMosaic.PureOps.Ideal.Laws

noncomputable section

namespace Cert.KernelIdeal.HandTail

open Cert.KernelIdeal Cert.KernelIdeal.Gen Idealize.ShloMosaic Idealize.ShloMosaic.TcCoe Idealize.ShloMosaic.ValueIdx Idealize.ShloMosaic.StableHlo

/-- The sum of a `[64, 1, 256]` array over all its axes, started at the zero constant, is the sum over the `16384`
    numbers `b * 256 + r` of its entries `(b, 0, r)`: the initial value is zero, the reduction into the one-index shape
    is the total sum, and every index is `(b, 0, r)` for its outer coordinates. -/
theorem total_sum (y0 : FVec Ideal S64x1x256 .f32) (L : Fin 16384 → EReal)
    (hL : ∀ (i : Fin 64) (q : Fin 256), y0 (ix3 i (0 : Fin 1) q) = L ⟨i.val * 256 + q.val, by omega⟩) (j : S_.Idx) :
    Host.reduceAdd (F := Ideal) y0 (constant S_ .f32 0x00000000#32) reducesTo_S64x1x256_S_d0_1_2 h_S_ j
      = ∑ Q : Fin 16384, L Q := by
  simp only [Host.reduceAdd, Ideal.hostReduceAdd_def]
  rw [Ideal.hostReduceAdd_total reducesTo_S64x1x256_S_d0_1_2 (fun b => b.elim0)]
  rw [show (constant (F := Ideal) S_ .f32 0x00000000#32) (Shape.Idx.first h_S_) = (0 : EReal) from Ideal.ofBits_zero_f32,
    zero_add]
  rw [← Cert.SumIndex.sum_blocks_64x1x256 L]
  refine Finset.sum_congr rfl fun i _ => ?_
  exact (congrArg y0 ((Cert.SumIndex.idxEquiv3 (n0 := 64) (n2 := 256)).left_inv i)).symm.trans (hL (i 0) (i 2))

/-- The result buffer after the seven operations, with the scalar argument's value named `lw`. -/
theorem tail_value_of (W : Valuation τ sig (Elt Ideal)) (L : Fin 16384 → EReal) (lw : EReal)
    (hlw : (W main_arg1 : S_.Idx → EReal) ix0 = lw)
    (hL : ∀ (i : Fin 64) (q : Fin 256), (W main_v1 : S64x1x256.Idx → EReal) (ix3 i (0 : Fin 1) q) = L ⟨i.val * 256 + q.val, by omega⟩) :
    StableHlo.after (hostOps2 (F := Ideal)) W main_v5
      = fun _ => lw * (Ideal.div (∑ Q : Fin 16384, L Q) Cert.GramSpec.cols - Cert.GramSpec.one) := by
  subst hlw
  after_results
  funext j
  show HMul.hMul (α := EReal) (β := EReal) (γ := EReal) ((W main_arg1 : S_.Idx → EReal) j)
    (Ideal.div (Host.reduceAdd (F := Ideal) (W main_v1) (constant S_ .f32 0x00000000#32) reducesTo_S64x1x256_S_d0_1_2 h_S_ j)
      (Ideal.ofBits .f32 0x46800000#32) - Ideal.ofBits .f32 0x3F800000#32) = _
  rw [total_sum (W main_v1) L hL j, eq_ix0 j]
  rfl

/-- The same with the scalar argument's value written out: the product is the extended reals'. -/
theorem tail_value (W : Valuation τ sig (Elt Ideal)) (L : Fin 16384 → EReal)
    (hL : ∀ (i : Fin 64) (q : Fin 256), (W main_v1 : S64x1x256.Idx → EReal) (ix3 i (0 : Fin 1) q) = L ⟨i.val * 256 + q.val, by omega⟩) :
    StableHlo.after (hostOps2 (F := Ideal)) W main_v5
      = fun _ => HMul.hMul (α := EReal) (β := EReal) (γ := EReal) ((W main_arg1 : S_.Idx → EReal) ix0)
          (Ideal.div (∑ Q : Fin 16384, L Q) Cert.GramSpec.cols - Cert.GramSpec.one) :=
  tail_value_of W L _ rfl hL

end Cert.KernelIdeal.HandTail

end
-- ==== Proof.KIFinal.lean ====
/-
  The idealized kernel program's result as a function of its arguments. After the first region the result buffer of the
  normaliser holds every column of the weight matrix scaled to unit length; after the second, entry (i, 0, q) of the
  Gram kernel's result holds the logarithm of the sum, over all key columns j, of the exponential of the inner product of
  the scaled columns j and 256·i + q; the host operations sum those 16384 logarithms, divide by the column count,
  subtract one and scale by the scalar argument.
-/
import proofs.«152298_j65429531787296_2_alg».proof.Proof.KIRun
import proofs.«152298_j65429531787296_2_alg».proof.Proof.KIValue0
import proofs.«152298_j65429531787296_2_alg».proof.Proof.KIValue1
import proofs.«152298_j65429531787296_2_alg».proof.Proof.KITail
import proofs.«152298_j65429531787296_2_alg».proof.Proof.Spec

noncomputable section

namespace Cert.KernelIdeal.HandFinal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The weight matrix and the scalar as launched, on core `c`. -/
abbrev wArg (c : Dev nD) : Cert.GramSpec.W.Idx → EReal := m ((c.tc : Thread nD τ).loc main_arg0)
abbrev lwArg (c : Dev nD) : EReal := m ((c.tc : Thread nD τ).loc main_arg1) ix0

/-- What the second region finds in the normaliser's result buffer: the unit-length columns. -/
theorem unit_entry (c : Dev nD) (d : Fin 256) (j : Fin 16384) :
    Vb m c main_v0 (ix2 d j) = Cert.GramSpec.unitCol (wArg m c) d j := by
  have h : Vb m c main_v0 = o1 m c := Function.update_self (f := Gen.V0 m c) (Proc.devRef .tc main_v0) (o1 m c)
  rw [h]
  exact Cert.KernelIdeal.HandValue.final0 (Va m) c d j

/-- What the host operations find in the Gram kernel's result buffer: per query column, the logarithm of the sum of the
    exponentials of its inner products with every key column. -/
theorem logs_entry (c : Dev nD) (i : Fin 64) (q : Fin 256) :
    Wc m c main_v1 (ix3 i (0 : Fin 1) q)
      = (fun Q : Fin 16384 => Ideal.log (∑ j : Fin 16384, Ideal.exp (Cert.GramSpec.gram (wArg m c) j Q))) ⟨i.val * 256 + q.val, by omega⟩ := by
  have h : Wc m c main_v1 = o2 m c := Function.update_self (f := Wb m c) (Proc.devRef .tc main_v1) (o2 m c)
  rw [h]
  unfold o2
  rw [Cert.KernelIdeal.HandValue.final1 (Vb m) c i q]
  exact Cert.KernelIdeal.HandValue.logSumAt_of_unit (Vb m c main_v0) (wArg m c) (fun d j => unit_entry m c d j) _

/-- The result buffer's last contents. -/
theorem value (c : Dev nD) :
    Gen.V3 m (outs m) c main_v5 = fun _ => Cert.GramSpec.lossShiftOutside (wArg m c) (lwArg m c) := by
  show StableHlo.after (hostOps2 (F := Ideal)) (Gen.V2 m (outs m) c) main_v5 = _
  rw [V2_eq]
  exact Cert.KernelIdeal.HandTail.tail_value_of (Wc m c) _ (lwArg m c) rfl (fun i q => logs_entry m c i q)

/-- Every execution of the idealized kernel program ends with the result at the loss with the shift taken outside, and
    the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = (fun _ => Cert.GramSpec.lossShiftOutside (wArg m c) (lwArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value m c), (h c).2⟩) (run_main (F := Ideal) m ρ)

end Cert.KernelIdeal.HandFinal

end
-- ==== Proof.RefValue.lean ====
import proofs.«152298_j65429531787296_2_alg».proof.Proof.Gen.ReferenceIdeal.Read
import proofs.«152298_j65429531787296_2_alg».proof.Proof.Spec

/-
  The reference program's result, read at the extended reals, is the loss with the shift by one inside the
  exponential and the division by the column count last (`Cert.GramSpec.lossShiftInside`).

  The program's stages are read one at a time, each at an index given by its coordinates: the sum of a column's
  squares, the clamped norm of the column, the scaled entry, the Gram matrix entry as the inner product of two scaled
  columns, the exponential of the entry less one, the sum of a row of exponentials, its logarithm, the total over the
  rows, the product with the scalar argument and the quotient by the column count. Every sum starts from the zero
  pattern, which is the extended real `0`.
-/

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.GramSpec

/-- The weight matrix's contents at the extended reals. -/
abbrev Mat : Type := (⟨S256x16384, .f32⟩ : BufTy).Contents (Elt Ideal)

/-- The sum of column `j`'s squares. -/
theorem sumsq_apply (x0 : Mat) (j : Fin 16384) :
    val_main_call0_v1 (F := Ideal) x0 (ix1 j) = ∑ d : Fin 256, x0 (ix2 d j) * x0 (ix2 d j) := by
  rw [val_main_call0_v1_apply, val_main_call0_cst_apply, Ideal.ofBits_def, Ideal.ofBits_zero_f32, zero_add]
  refine Finset.sum_congr rfl fun d _ => ?_
  have h : idx_main_call0_v1 (ix1 j) d = ix2 d j :=
    funext fun a => Fin.ext (by match a with | ⟨0, _⟩ => rfl | ⟨1, _⟩ => rfl)
  rw [val_main_call0_v0_apply, Ideal.mulf_def, h]

/-- The clamped norm of column `j`. -/
theorem norm_apply (x0 : Mat) (j : Fin 16384) :
    val_main_v2 (F := Ideal) x0 (ix2 (0 : Fin 1) j) = colNorm x0 j := by
  have h : idx_main_call0_v2 (ix2 (0 : Fin 1) j) = ix1 j :=
    funext fun a => Fin.ext (by match a with | ⟨0, _⟩ => rfl)
  rw [val_main_v2_apply, val_main_v0_apply, val_main_call0_v2_apply, val_main_v1_apply, val_main_cst_apply, h,
    sumsq_apply, Ideal.maximumf_def, Ideal.hostUnary_sqrt_def, Ideal.ofBits_def]
  rfl

/-- The scaled entry `(d, j)`. -/
theorem unit_apply (x0 : Mat) (d : Fin 256) (j : Fin 16384) :
    val_main_v4 (F := Ideal) x0 (ix2 d j) = unitCol x0 d j := by
  have h : idx_main_v3 (ix2 d j) = ix2 (0 : Fin 1) j :=
    funext fun a => Fin.ext (by match a with | ⟨0, _⟩ => rfl | ⟨1, _⟩ => rfl)
  rw [val_main_v4_apply, val_main_v3_apply, h, norm_apply, Ideal.hostDivf_def]
  rfl

/-- The Gram matrix entry `(i, j)`. -/
theorem gram_apply (x0 : Mat) (i j : Fin 16384) :
    val_main_v5 (F := Ideal) x0 (ix2 i j) = gram x0 i j := by
  rw [val_main_v5_apply]
  refine Finset.sum_congr rfl fun d _ => ?_
  have hl : lidx_main_v5 (ix2 i j) d = ix2 d i :=
    funext fun a => Fin.ext (by match a with | ⟨0, _⟩ => rfl | ⟨1, _⟩ => rfl)
  have hr : ridx_main_v5 (ix2 i j) d = ix2 d j :=
    funext fun a => Fin.ext (by match a with | ⟨0, _⟩ => rfl | ⟨1, _⟩ => rfl)
  rw [hl, hr, unit_apply, unit_apply]

/-- The exponential of the Gram matrix entry less one. -/
theorem exp_apply (x0 : Mat) (i j : Fin 16384) :
    val_main_v8 (F := Ideal) x0 (ix2 i j) = Ideal.exp (gram x0 i j - one) := by
  rw [val_main_v8_apply, val_main_v7_apply, val_main_v6_apply, val_main_cst_0_apply, gram_apply,
    Ideal.hostUnary_exp_def, Ideal.subf_def, Ideal.ofBits_def]
  rfl

/-- The logarithm of row `i`'s sum of exponentials. -/
theorem log_apply (x0 : Mat) (i : Fin 16384) :
    val_main_v10 (F := Ideal) x0 (ix1 i) = Ideal.log (∑ j : Fin 16384, Ideal.exp (gram x0 i j - one)) := by
  rw [val_main_v10_apply, val_main_v9_apply, val_main_cst_1_apply, Ideal.hostUnary_log_def, Ideal.ofBits_def,
    Ideal.ofBits_zero_f32, zero_add]
  refine congrArg Ideal.log (Finset.sum_congr rfl fun j _ => ?_)
  have h : idx_main_v9 (ix1 i) j = ix2 i j :=
    funext fun a => Fin.ext (by match a with | ⟨0, _⟩ => rfl | ⟨1, _⟩ => rfl)
  rw [h, exp_apply]

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The total over the rows. -/
theorem total_apply (x0 : Mat) (i : S_.Idx) :
    val_main_v11 (F := Ideal) x0 i
      = ∑ q : Fin 16384, Ideal.log (∑ j : Fin 16384, Ideal.exp (gram x0 q j - one)) := by
  rw [val_main_v11_apply, val_main_cst_2_apply, Ideal.ofBits_def, Ideal.ofBits_zero_f32, zero_add, sum_idx1]
  exact Finset.sum_congr rfl fun q _ => log_apply x0 q

/-- The reference's result is the loss with the shift inside the exponential. -/
theorem ref_value (x0 : (⟨Cert.ReferenceIdeal.S256x16384, .f32⟩ : BufTy).Contents (Elt Ideal))
    (x1 : (⟨Cert.ReferenceIdeal.S_, .f32⟩ : BufTy).Contents (Elt Ideal)) :
    Cert.ReferenceIdeal.Read.val_main_v13 (F := Ideal) x0 x1
      = fun _ => Cert.GramSpec.lossShiftInside x0 (x1 Idealize.ShloMosaic.ValueIdx.ix0) := by
  funext i
  rw [val_main_v13_apply, val_main_v12_apply, val_main_cst_3_apply, total_apply, Ideal.hostDivf_def, Ideal.mulf_def,
    Ideal.ofBits_def, eq_ix0 i]
  rfl

/-- Every weakly fair execution of the reference ends with its result at the loss of its arguments' launch contents,
    the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v13)
          = (fun _ => Cert.GramSpec.lossShiftInside (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1) Idealize.ShloMosaic.ValueIdx.ix0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (by rw [Read.val_main_v13_eq]; exact ref_value _ _), (h c).2⟩)
    (Cert.ReferenceIdeal.Value.run (F := Ideal) m ρ)

end Cert.RefValue

end
-- ==== Proof.SpecLaw.lean ====
/-
  The two forms of the loss agree on real inputs.

  With every entry of the weight matrix a real number, each column's clamped norm is a real number at least the
  positive clamp, so the scaled entries and the Gram matrix `g` are real, and `g` is symmetric. Every inner sum
  `a i = ∑ j, exp (g i j)` is a positive real. Because `exp (g - 1) = exp g / e`, the shifted inner sum is `a i / e`,
  whose logarithm is `log (a i) - 1`; summed over the `N` columns this is `(∑ i, log (a i)) - N`, and
  `lw * (S / N - 1) = (lw * (S - N)) / N`. The identity is proved over an arbitrary non-empty finite index type,
  so no sum is ever expanded.
-/
import proofs.«152298_j65429531787296_2_alg».proof.Proof.Spec

noncomputable section

namespace Cert.GramSpec

open Idealize.ShloMosaic Idealize.ShloMosaic.ValueIdx

/-! ## Coercions of finite sums and of maxima -/

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion commutes with the maximum of two reals (it is monotone). -/
theorem coe_max (a b : ℝ) : ((max a b : ℝ) : EReal) = max (a : EReal) (b : EReal) :=
  EReal.coe_strictMono.monotone.map_max

/-! ## The three constants -/

/-- The pattern `0x3F800000` is the real number one. -/
theorem one_eq : one = ((1 : ℝ) : EReal) := by
  simp [one, Ideal.ofBits, Ideal.ieee]
  rw [← EReal.coe_mul]
  norm_num

/-- The pattern `0x46800000` is the real number `16384`. -/
theorem cols_eq : cols = ((16384 : ℝ) : EReal) := by
  simp [cols, Ideal.ofBits, Ideal.ieee]
  rw [← EReal.coe_mul]
  norm_num

/-- The clamp as a real number: significand `2^23 + 2870391`, exponent `100 - 127 - 23`. -/
def epsR : ℝ := 11258999 * (2 ^ 50)⁻¹

theorem epsR_pos : 0 < epsR := by unfold epsR; positivity

/-- The pattern `0x322BCC77` is that positive real. -/
theorem eps_eq : eps = (epsR : EReal) := by
  simp [eps, epsR, Ideal.ofBits, Ideal.ieee]

/-! ## The identity on the reals, over any non-empty finite index type -/

/-- For a symmetric real matrix `g` over a finite non-empty index type with `N` elements, the loss with the shift
    outside the logarithm and the loss with the shift inside the exponential are equal. -/
theorem loss_real {ι : Type} [Fintype ι] [Nonempty ι] (g : ι → ι → ℝ) (hg : ∀ i j, g i j = g j i) (lw N : ℝ)
    (hN : N = (Fintype.card ι : ℝ)) :
    lw * ((∑ q, Real.log (∑ j, Real.exp (g j q))) * (1 / N) - 1)
      = (lw * ∑ i, Real.log (∑ j, Real.exp (g i j - 1))) * (1 / N) := by
  have hN0 : N ≠ 0 := by rw [hN]; exact_mod_cast Fintype.card_ne_zero
  have hpos : ∀ i, 0 < ∑ j, Real.exp (g i j) := fun i =>
    Finset.sum_pos (fun j _ => Real.exp_pos _) Finset.univ_nonempty
  -- the shifted inner sum is the inner sum divided by `e`, so its logarithm is one less
  have h1 : ∀ i, Real.log (∑ j, Real.exp (g i j - 1)) = Real.log (∑ j, Real.exp (g i j)) - 1 := by
    intro i
    have hs : ∑ j, Real.exp (g i j - 1) = (∑ j, Real.exp (g i j)) / Real.exp 1 := by
      rw [Finset.sum_div]; exact Finset.sum_congr rfl fun j _ => Real.exp_sub _ _
    rw [hs, Real.log_div (ne_of_gt (hpos i)) (Real.exp_ne_zero 1), Real.log_exp]
  -- symmetry turns a column's inner sum into the row's
  have e1 : ∑ q, Real.log (∑ j, Real.exp (g j q)) = ∑ q, Real.log (∑ j, Real.exp (g q j)) :=
    Finset.sum_congr rfl fun q _ => by
      rw [Finset.sum_congr rfl fun j _ => by rw [hg j q]]
  -- the sum of `log (a i) - 1` over the `N` indices
  have e2 : ∑ i, Real.log (∑ j, Real.exp (g i j - 1)) = (∑ i, Real.log (∑ j, Real.exp (g i j))) - N := by
    rw [Finset.sum_congr rfl fun i _ => h1 i, Finset.sum_sub_distrib, Finset.sum_const, Finset.card_univ,
      nsmul_eq_mul, mul_one, hN]
  rw [e1, e2]
  field_simp

/-! ## The same identity on the extended reals -/

/-- When the extended-real matrix `G` is the coercion of a symmetric real matrix `g`, and `lw` and the column count
    are real, both losses are coercions of the real expressions above, hence equal. -/
theorem loss_eq_of_real {ι : Type} [Fintype ι] [Nonempty ι] (G : ι → ι → EReal) (g : ι → ι → ℝ)
    (hG : ∀ i j, G i j = (g i j : EReal)) (hg : ∀ i j, g i j = g j i) (lw N : ℝ)
    (hN : N = (Fintype.card ι : ℝ)) :
    (lw : EReal) * (Ideal.div (∑ q, Ideal.log (∑ j, Ideal.exp (G j q))) (N : EReal) - ((1 : ℝ) : EReal))
      = Ideal.div ((lw : EReal) * ∑ i, Ideal.log (∑ j, Ideal.exp (G i j - ((1 : ℝ) : EReal)))) (N : EReal) := by
  have hN0 : N ≠ 0 := by rw [hN]; exact_mod_cast Fintype.card_ne_zero
  have hA : ∀ q, Ideal.log (∑ j, Ideal.exp (G j q)) = ((Real.log (∑ j, Real.exp (g j q)) : ℝ) : EReal) := by
    intro q
    have hs : ∑ j, Ideal.exp (G j q) = ((∑ j, Real.exp (g j q) : ℝ) : EReal) := by
      rw [coe_sum]; exact Finset.sum_congr rfl fun j _ => by rw [hG, Ideal.exp_coe]
    rw [hs, Ideal.log_coe, if_neg (not_le.mpr
      (Finset.sum_pos (fun j _ => Real.exp_pos _) Finset.univ_nonempty))]
  have hB : ∀ i, Ideal.log (∑ j, Ideal.exp (G i j - ((1 : ℝ) : EReal)))
      = ((Real.log (∑ j, Real.exp (g i j - 1)) : ℝ) : EReal) := by
    intro i
    have hs : ∑ j, Ideal.exp (G i j - ((1 : ℝ) : EReal)) = ((∑ j, Real.exp (g i j - 1) : ℝ) : EReal) := by
      rw [coe_sum]; exact Finset.sum_congr rfl fun j _ => by rw [hG, ← EReal.coe_sub, Ideal.exp_coe]
    rw [hs, Ideal.log_coe, if_neg (not_le.mpr
      (Finset.sum_pos (fun j _ => Real.exp_pos _) Finset.univ_nonempty))]
  rw [Finset.sum_congr rfl fun q _ => hA q, Finset.sum_congr rfl fun i _ => hB i, ← coe_sum, ← coe_sum,
    Ideal.div_coe hN0, Ideal.div_coe hN0, ← EReal.coe_mul, ← EReal.coe_sub, ← EReal.coe_mul, ← EReal.coe_mul,
    ← EReal.coe_mul]
  exact congrArg _ (loss_real g hg lw N hN)

/-! ## The Gram matrix of a real weight matrix is real and symmetric -/

/-- Column `j`'s clamped Euclidean norm, on the reals. -/
def normR (wr : W.Idx → ℝ) (j : Fin 16384) : ℝ :=
  max (Real.sqrt (∑ d : Fin 256, wr (ix2 d j) * wr (ix2 d j))) epsR

theorem normR_pos (wr : W.Idx → ℝ) (j : Fin 16384) : 0 < normR wr j :=
  lt_of_lt_of_le epsR_pos (le_max_right _ _)

/-- Entry `(d, j)` of the matrix with unit columns, on the reals. -/
def unitR (wr : W.Idx → ℝ) (d : Fin 256) (j : Fin 16384) : ℝ :=
  wr (ix2 d j) * (1 / normR wr j)

/-- The Gram matrix of the unit columns, on the reals. -/
def gramR (wr : W.Idx → ℝ) (i j : Fin 16384) : ℝ :=
  ∑ d : Fin 256, unitR wr d i * unitR wr d j

theorem gramR_symm (wr : W.Idx → ℝ) (i j : Fin 16384) : gramR wr i j = gramR wr j i :=
  Finset.sum_congr rfl fun _ _ => mul_comm _ _

section Coe

variable (w : W.Idx → EReal) (wr : W.Idx → ℝ) (hw : ∀ i, w i = (wr i : EReal))
include hw

/-- A sum of squares is not negative, so its square root is the real one, and the maximum with the clamp is real. -/
theorem colNorm_coe (j : Fin 16384) : colNorm w j = (normR wr j : EReal) := by
  have hs : ∑ d : Fin 256, w (ix2 d j) * w (ix2 d j)
      = ((∑ d : Fin 256, wr (ix2 d j) * wr (ix2 d j) : ℝ) : EReal) := by
    rw [coe_sum]; exact Finset.sum_congr rfl fun d _ => by rw [hw, EReal.coe_mul]
  unfold colNorm normR
  rw [hs, Ideal.sqrt_coe, if_neg (not_lt.mpr (Finset.sum_nonneg fun d _ => mul_self_nonneg _)), eps_eq, coe_max]

/-- The norm is a non-zero real, so the division is the product with its reciprocal. -/
theorem unitCol_coe (d : Fin 256) (j : Fin 16384) : unitCol w d j = (unitR wr d j : EReal) := by
  unfold unitCol unitR
  rw [colNorm_coe w wr hw, Ideal.div_coe (ne_of_gt (normR_pos wr j)), hw, ← EReal.coe_mul]

theorem gram_coe (i j : Fin 16384) : gram w i j = (gramR wr i j : EReal) := by
  unfold gram gramR
  rw [coe_sum]
  exact Finset.sum_congr rfl fun d _ => by rw [unitCol_coe w wr hw, unitCol_coe w wr hw, EReal.coe_mul]

end Coe

/-! ## The law -/

/-- On a real weight matrix and a real scale the two losses are equal. -/
theorem loss_eq (w : W.Idx → EReal) (lw : EReal) (hw : ∀ i, ∃ r : ℝ, w i = (r : EReal)) (hlw : ∃ r : ℝ, lw = (r : EReal)) :
    lossShiftOutside w lw = lossShiftInside w lw := by
  choose wr hwr using hw
  obtain ⟨l, rfl⟩ := hlw
  haveI : Nonempty (Fin 16384) := ⟨⟨0, by norm_num⟩⟩
  unfold lossShiftOutside lossShiftInside
  rw [one_eq, cols_eq]
  exact loss_eq_of_real (gram w) (gramR wr) (gram_coe w wr hwr) (gramR_symm wr) l 16384
    (by rw [Fintype.card_fin]; norm_num)

end Cert.GramSpec

end
-- ==== Proof.FiniteInputs.lean ====
/-
  The precondition "every input is finite", read back. The predicate takes the absolute value of every entry of the
  matrix and of the scalar, compares each with positive infinity (the pattern `0x7F800000`, the top of the extended
  reals), and conjoins all the comparisons. If the result is true then every comparison is true; an extended real whose
  absolute value `max x (-x)` lies strictly below the top is neither the top nor the bottom, so it is a real number.
-/
import proofs.«152298_j65429531787296_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- A shape of rank zero has one index. -/
instance : Subsingleton Cert.Pre_finite_inputs.S_.Idx := ⟨fun a b => funext fun d => d.elim0⟩

/-- The pattern `0x7F800000` (all-ones exponent, zero significand, sign clear) is positive infinity. -/
theorem inf_eq : Ideal.ofBits .f32 0x7F800000#32 = ⊤ := by simp [Ideal.ofBits, Ideal.ieee]

/-- An extended real whose absolute value is strictly below the top is a real number: at the bottom and at the top
    the absolute value is the top. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "absolute value less than positive infinity" answering true makes the value real. -/
theorem real_of_cmp (y : EReal) (hy : Ideal.cmp .olt (max y (-y)) (Ideal.ofBits .f32 0x7F800000#32) = 1#1) :
    ∃ r : ℝ, y = (r : EReal) := by
  rw [inf_eq] at hy
  apply real_of_abs_lt_top
  by_contra hn
  simp [Ideal.cmp, hn] at hy

/-- Every entry of the matrix and the scalar are real numbers when the predicate answers true. -/
theorem finite_of_pre [Cert.Pre_finite_inputs.Facts] (x : FVec Ideal Cert.Pre_finite_inputs.S256x16384 .f32) (s : FVec Ideal Cert.Pre_finite_inputs.S_ .f32)
    (h : Cert.Pre_finite_inputs.fn (F := Ideal) x s = fun _ => 1#1) :
    (∀ i, ∃ r : ℝ, x i = (r : EReal)) ∧ ∃ r : ℝ, s Idealize.ShloMosaic.ValueIdx.ix0 = (r : EReal) := by
  have e := congrFun h ValueIdx.ix0
  dsimp only [Cert.Pre_finite_inputs.fn] at e
  -- the last operation is the conjunction of the two reductions
  obtain ⟨e1, e2⟩ := IntOp.andi_eq_one.1 e
  -- a conjunction over all entries that is true has every entry true
  exact ⟨fun i => real_of_cmp (x i) (Host.reduce_andi_all _ _ _ _ _ e1 i),
    real_of_cmp (s ValueIdx.ix0) (Host.reduce_andi_all _ _ _ _ _ e2 ValueIdx.ix0)⟩

end Cert.FiniteInputs

end
-- ==== Proof.lean ====
/-
  The certificate's claim. Both programs compute, on the extended reals, a loss of a [256, 16384] weight matrix `w` and a
  scalar `lw`: the columns of `w` are scaled to unit length (the norm clamped below by a small constant), `G i j` is the
  inner product of scaled columns `i` and `j`, and the loss is `lw` times the mean over the columns of
  `log ∑ j, exp (G i j - 1)`. The kernel program takes the shift by one outside the logarithm (`log ∑ exp (G - 1) =
  log ∑ exp G - 1`), sums each column's exponentials in eight chunks against a resident copy of the scaled matrix, and
  divides by the column count before scaling; the reference divides last. On finite inputs every intermediate value is a
  real number, the exponential of a difference is a quotient, the logarithm of a positive product splits, the Gram
  matrix is symmetric, and the two results agree. The frames: every execution of each program terminates, faults
  nowhere and leaves its arguments unchanged — for the kernel programs through their two pipelined regions and the host
  operations after them, for the reference through its host operations alone. The kernel's idealization rewrote nothing.
-/
import proofs.«152298_j65429531787296_2_alg».proof.Defs
import proofs.«152298_j65429531787296_2_alg».proof.Proof.Gen.Kernel
import proofs.«152298_j65429531787296_2_alg».proof.Proof.Gen.KernelIdeal
import proofs.«152298_j65429531787296_2_alg».proof.Proof.Gen.ReferenceIdeal
import proofs.«152298_j65429531787296_2_alg».proof.Proof.Gen.Pre_finite_inputs
import proofs.«152298_j65429531787296_2_alg».proof.Proof.Gen.ReferenceIdeal.Run
import proofs.«152298_j65429531787296_2_alg».proof.Proof.KRun
import proofs.«152298_j65429531787296_2_alg».proof.Proof.KIRun
import proofs.«152298_j65429531787296_2_alg».proof.Proof.KIFinal
import proofs.«152298_j65429531787296_2_alg».proof.Proof.RefValue
import proofs.«152298_j65429531787296_2_alg».proof.Proof.SpecLaw
import proofs.«152298_j65429531787296_2_alg».proof.Proof.FiniteInputs

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments the two idealized programs end with equal results: the kernel's at the loss
    with the shift outside, the reference's at the loss with the shift inside, equal on the finite inputs the precondition
    grants. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.GramSpec.lossShiftOutside (Cert.KernelIdeal.HandFinal.wArg m c) (Cert.KernelIdeal.HandFinal.lwArg m c),
    Cert.KernelIdeal.HandFinal.kernel_run m ρ, ?_⟩
  refine (θ_run Cert.ReferenceIdeal.defs _ _).mono (fun _ h c => ⟨(h c).1.trans ?_, (h c).2⟩) (Cert.RefValue.ref_run m' ρ')
  rw [(hagree c).1, (hagree c).2]
  haveI : Cert.Pre_finite_inputs.Facts := Cert.Pre_finite_inputs.Gen.facts
  have hfin := Cert.FiniteInputs.finite_of_pre _ _ (hpre c)
  exact funext fun _ => (Cert.GramSpec.loss_eq _ _ hfin.1 hfin.2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
